-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128x40 : Shape := ⟨2, ![128, 40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_

variable [Facts]

def fn_part1 {F : FTy → Type} [FloatOps F] (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128x40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x40 .f32 := Host.absf main_arg3
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128x40 : Shape := ⟨2, ![128, 40]⟩
abbrev S10000x40 : Shape := ⟨2, ![10000, 40]⟩
abbrev S400x10000 : Shape := ⟨2, ![400, 10000]⟩
abbrev S400x40 : Shape := ⟨2, ![400, 40]⟩
abbrev S400x128 : Shape := ⟨2, ![400, 128]⟩
abbrev S400 : Shape := ⟨1, ![400]⟩
abbrev S400x1 : Shape := ⟨2, ![400, 1]⟩

abbrev nBuf : Space → Nat
  | .hbm => 6
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x40, .f32⟩
  | .hbm, ⟨4, _⟩ => ⟨S10000x40, .f32⟩
  | .hbm, ⟨5, _⟩ => ⟨S10000x40, .f32⟩
  | .local _ .vmem, ⟨0, _⟩ => ⟨S10000x128, .f32⟩
  | .local _ .vmem, ⟨1, _⟩ => ⟨S128x128, .f32⟩
  | .local _ .vmem, ⟨2, _⟩ => ⟨S128x40, .f32⟩
  | .local _ .vmem, ⟨3, _⟩ => ⟨S400x10000, .f32⟩
  | .local _ .vmem, ⟨4, _⟩ => ⟨S400x10000, .f32⟩
  | .local _ .vmem, ⟨5, _⟩ => ⟨S400x40, .f32⟩
  | .local _ .vmem, ⟨6, _⟩ => ⟨S400x40, .f32⟩
  | .local _ .vmem, ⟨7, _⟩ => ⟨S10000x128, .bf16⟩
  | .local _ .vmem, ⟨8, _⟩ => ⟨S10000x40, .f32⟩
  | .local _ .vmem, ⟨9, _⟩ => ⟨S400x10000, .f32⟩
  | .local _ .vmem, ⟨10, _⟩ => ⟨S400x10000, .f32⟩
  | .local _ .vmem, ⟨11, _⟩ => ⟨S400x40, .f32⟩
  | .local _ .vmem, ⟨12, _⟩ => ⟨S400x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x40 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x40 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S400x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S400x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S128x40_S128x40_0_0 : ∀ a, (![0, 0] : Fin 2 → Nat) a + S128x40.size a ≤ S128x40.size a
  h_S128x40 : 0 < S128x40.numel
  inb_S400x40_S400x40_0_0 : ∀ a, (![0, 0] : Fin 2 → Nat) a + S400x40.size a ≤ S400x40.size a
  h_S400x40 : 0 < S400x40.numel
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  reduces_S400x40_S400 : S400x40.Reduces [1] S400
  shapeCasts_S400_S400x1 : S400.ShapeCasts S400x1
  broadcasts_S400x1_S400x40 : S400x1.Broadcasts S400x40
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x40_S400x40_1_0_0_1_n_n_wf : DotDims.WF S400x128 S128x40 S400x40 [1] [0] [0] [1] [] []
  dot_S400x10000_S10000x40_S400x40_1_0_0_1_n_n_wf : DotDims.WF S400x10000 S10000x40 S400x40 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x40.size a ≤ S128x40.size a
  hwx0_2 : ∀ i : grid0.Coords, EltTy.bits .f32 = 32 ∨ (Rect.block (s := S128x40) S128x40.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x40.size a ≤ S10000x40.size a
  hwx0_4 : ∀ i : grid0.Coords, EltTy.bits .f32 = 32 ∨ (Rect.block (s := S10000x40) S400x40.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x40.size a ≤ S10000x40.size a
  hwx1_0 : ∀ i : grid1.Coords, EltTy.bits .f32 = 32 ∨ (Rect.block (s := S10000x40) S10000x40.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x10000.size a ≤ S10000x10000.size a
  hwx1_1 : ∀ i : grid1.Coords, EltTy.bits .f32 = 32 ∨ (Rect.block (s := S10000x10000) S400x10000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x40.size a ≤ S10000x40.size a
  hwx1_2 : ∀ i : grid1.Coords, EltTy.bits .f32 = 32 ∨ (Rect.block (s := S10000x40) S400x40.size (cc1_transform_2 i) (hinb1_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x40_S400x40_1_0_0_1_n_n : DotDims S400x128 S128x40 S400x40 where
  lhsContracting := [1]
  rhsContracting := [0]
  lhsNonContracting := [0]
  rhsNonContracting := [1]
  lhsBatch := []
  rhsBatch := []
  wf := dot_S400x128_S128x40_S400x40_1_0_0_1_n_n_wf
def dot_S400x10000_S10000x40_S400x40_1_0_0_1_n_n : DotDims S400x10000 S10000x40 S400x40 where
  lhsContracting := [1]
  rhsContracting := [0]
  lhsNonContracting := [0]
  rhsNonContracting := [1]
  lhsBatch := []
  rhsBatch := []
  wf := dot_S400x10000_S10000x40_S400x40_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S400x40.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_call0_v0) S10000x40.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S400x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S400x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128x40 : Shape := ⟨2, ![128, 40]⟩
abbrev S_ : Shape := ⟨0, ![]⟩
abbrev S10000x40 : Shape := ⟨2, ![10000, 40]⟩
abbrev S10000 : Shape := ⟨1, ![10000]⟩
abbrev S10000x1 : Shape := ⟨2, ![10000, 1]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x40, .f32⟩
  | .hbm, ⟨4, _⟩ => ⟨S10000x128, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .f32⟩
  | .hbm, ⟨9, _⟩ => ⟨S10000x40, .f32⟩
  | .hbm, ⟨10, _⟩ => ⟨S10000x40, .f32⟩
  | .hbm, ⟨11, _⟩ => ⟨S_, .f32⟩
  | .hbm, ⟨12, _⟩ => ⟨S10000x40, .f32⟩
  | .hbm, ⟨13, _⟩ => ⟨S10000x40, .f32⟩
  | .hbm, ⟨14, _⟩ => ⟨S_, .f32⟩
  | .hbm, ⟨15, _⟩ => ⟨S10000, .f32⟩
  | .hbm, ⟨16, _⟩ => ⟨S_, .f32⟩
  | .hbm, ⟨17, _⟩ => ⟨S10000, .f32⟩
  | .hbm, ⟨18, _⟩ => ⟨S10000, .f32⟩
  | .hbm, ⟨19, _⟩ => ⟨S10000x1, .f32⟩
  | .hbm, ⟨20, _⟩ => ⟨S10000x40, .f32⟩
  | .hbm, ⟨21, _⟩ => ⟨S10000x40, .f32⟩
  | .hbm, ⟨22, _⟩ => ⟨S10000x40, .f32⟩
  | .hbm, ⟨23, _⟩ => ⟨S_, .f32⟩
  | .hbm, ⟨24, _⟩ => ⟨S10000, .f32⟩
  | .hbm, ⟨25, _⟩ => ⟨S10000x1, .f32⟩
  | .hbm, ⟨26, _⟩ => ⟨S10000x1, .f32⟩
  | .hbm, ⟨27, _⟩ => ⟨S10000x40, .f32⟩
  | .hbm, ⟨28, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call1_cst : Ref sig .tc := ⟨.hbm, 11, rfl⟩
abbrev main_call1_v0 : Ref sig .tc := ⟨.hbm, 12, rfl⟩
abbrev main_v5 : Ref sig .tc := ⟨.hbm, 13, rfl⟩
abbrev main_call2_cst : Ref sig .tc := ⟨.hbm, 14, rfl⟩
abbrev main_call2_v0 : Ref sig .tc := ⟨.hbm, 15, rfl⟩
abbrev main_call2_cst_0 : Ref sig .tc := ⟨.hbm, 16, rfl⟩
abbrev main_call2_v1 : Ref sig .tc := ⟨.hbm, 17, rfl⟩
abbrev main_call2_v2 : Ref sig .tc := ⟨.hbm, 18, rfl⟩
abbrev main_call2_v3 : Ref sig .tc := ⟨.hbm, 19, rfl⟩
abbrev main_call2_v4 : Ref sig .tc := ⟨.hbm, 20, rfl⟩
abbrev main_call2_v5 : Ref sig .tc := ⟨.hbm, 21, rfl⟩
abbrev main_call2_v6 : Ref sig .tc := ⟨.hbm, 22, rfl⟩
abbrev main_call2_cst_1 : Ref sig .tc := ⟨.hbm, 23, rfl⟩
abbrev main_call2_v7 : Ref sig .tc := ⟨.hbm, 24, rfl⟩
abbrev main_call2_v8 : Ref sig .tc := ⟨.hbm, 25, rfl⟩
abbrev main_call2_v9 : Ref sig .tc := ⟨.hbm, 26, rfl⟩
abbrev main_call2_v10 : Ref sig .tc := ⟨.hbm, 27, rfl⟩
abbrev main_v6 : Ref sig .tc := ⟨.hbm, 28, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  bcast_S_S10000x40 : S_.BroadcastsInDim S10000x40 (![] : Fin 0 → Fin S10000x40.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x40_S10000x40_1_0_0_1_n_n_wf : DotDims.WF S10000x128 S128x40 S10000x40 [1] [0] [0] [1] [] []
  dot_S10000x10000_S10000x40_S10000x40_1_0_0_1_n_n_wf : DotDims.WF S10000x10000 S10000x40 S10000x40 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def dot_S10000x10000_S10000x40_S10000x40_1_0_0_1_n_n : DotDims S10000x10000 S10000x40 S10000x40 where
  lhsContracting := [1]
  rhsContracting := [0]
  lhsNonContracting := [0]
  rhsNonContracting := [1]
  lhsBatch := []
  rhsBatch := []
  wf := dot_S10000x10000_S10000x40_S10000x40_1_0_0_1_n_n_wf

class Facts : Prop extends Facts₀ where

variable [Facts]
-- ==== Proof.K.Common.lean ====
/-
  What the two passes share. The first pass runs over 25 blocks of 400 rows of the adjacency matrix; at its
  first block it computes the projected features x·W1 once and keeps them in a scratch buffer that every later
  block reads. Here: each window's block at a grid point as the pass finds it in its array, the fact that an
  input's staging buffer holds that block at every point, the one branch condition of the first pass (first
  block or not), the staging memrefs as the pipeline passes them, and the pass invariant before the first block
  spelt buffer by buffer.
-/
import proofs.«156622_g16509854286320_cont_7to1_1500_4_alg».proof.Proof.Gen.Kernel.Launch
import proofs.«156622_g16509854286320_cont_7to1_1500_4_alg».proof.Proof.Gen.Kernel.Skeleton
import proofs.«156622_g16509854286320_cont_7to1_1500_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-! ## First pass: the windows' blocks -/

/-- Window `w`'s block at point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## Second pass: the windows' blocks -/

/-- Window `w`'s block at point `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The first pass's branch: is this the first block? -/

/-- The condition under which the first pass computes x·W1 into its scratch: the grid coordinate is zero. -/
abbrev cond0_0 (i : grid0.Coords) : Prop := (Scalar.cmpi .ne (Scalar.extui (Scalar.cmpi .eq (BitVec.ofNat 32 (i 0).val) 0#32)) 0#32) = 1#1
/-- It holds at the first of the 25 points and at no other. -/
theorem hcond0_0 : ∀ t : Fin cfg0.N, cond0_0 (grid0.coords t) ↔ t.val = 0 :=
  (by decide +kernel : ∀ t : Fin grid0.N, cond0_0 (grid0.coords t) ↔ t.val = 0)

/-! ## The staging memrefs as the pipeline passes them -/

abbrev VO0_4 : View sig .tc .vmem S400x40 .f32 := (Memref.whole cc0_stg4_0 : Memref sig .tc .vmem S400x40 .f32).view
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x40 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S400x10000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x40 .f32 := win0_4.stage (cfg0.slots t 4)
abbrev hs0_4 (t : Fin cfg0.N) : (ms0_4 t).IsWhole := hstage0_4 ((cfg0.slots t 4).cast nbuf0_4)
/-- The scratch that keeps x·W1 between blocks, whole. -/
abbrev scM0 : Memref sig .tc .vmem S10000x128 .bf16 := Memref.whole cc0_scratch0
abbrev VS0 : View sig .tc .vmem S10000x128 .bf16 := scM0.view

abbrev VO1_2 : View sig .tc .vmem S400x40 .f32 := (Memref.whole cc1_stg2_0 : Memref sig .tc .vmem S400x40 .f32).view
abbrev ms1_0 (t : Fin cfg1.N) : Memref sig .tc .vmem S10000x40 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S400x10000 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S400x40 .f32 := win1_2.stage (cfg1.slots t 2)
abbrev hs1_2 (t : Fin cfg1.N) : (ms1_2 t).IsWhole := hstage1_2 ((cfg1.slots t 2).cast nbuf1_2)

/-- Before the first block the first pass holds its scratch, and the second pass's staging buffers, at any contents,
    and the generator register at some state. -/
theorem PhiA0_eq (c : Dev nD) :
    (Pipeline.ΦA spec0 c : sProp 𝕄)
      = iprop(iprop((∃ d, owns (c : Thread nD τ) scM0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [scM0, owns_whole]; try rfl

end Cert.Kernel.Hand

end
-- ==== Proof.K.FirstPoint.lean ====
/-
  The first pass's body at its FIRST block. It loads x and W1, stores their product (rounded to bf16, which at the
  exact instance is no change) over the whole scratch, loads the adjacency block, loads the scratch back, and stores
  relu(adj_block · scratch) · W2 over the whole output block. Stated as: from the inputs' staging buffers at given
  contents, the output block and the scratch at anything, the body runs and leaves the inputs as they were and the
  output block and the scratch with the listed pieces written; the pieces are what the symbolic run finds.
-/
import proofs.«156622_g16509854286320_cont_7to1_1500_4_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
noncomputable def kernelRun0_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128x40 .f32) (harg3 : arg3.IsWhole) (arg4 : Memref sig .tc .vmem S400x10000 .f32) (harg4 : arg4.IsWhole) (arg5 : Memref sig .tc .vmem S400x40 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S128x40 .f32) (x3 : Vec F S400x10000 .f32) :
    Σ' (L4 : List (View.Piece (Elt F) S400x40 .f32)), { LS0 : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0__pass_a_kernel i arg1 harg1 arg2 harg2 arg3 harg3 arg4 harg4 arg5 harg5 arg6 harg6) K } := by
  refine ⟨?_, ?_, fun E K => ?run⟩
  case run =>
    simp only [cc0__pass_a_kernel_eq_skeleton]; unfold cc0__pass_a_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.Kernel.Hand

end
-- ==== Proof.K.LaterPoints.lean ====
/-
  The first pass's body at every LATER block. The branch is not taken: the body loads the adjacency block, loads the
  scratch (which still holds what the first block stored), and stores relu(adj_block · scratch) · W2 over the whole
  output block. The scratch goes in at given contents and comes back untouched.
-/
import proofs.«156622_g16509854286320_cont_7to1_1500_4_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
noncomputable def kernelRun0_B (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128x40 .f32) (harg3 : arg3.IsWhole) (arg4 : Memref sig .tc .vmem S400x10000 .f32) (harg4 : arg4.IsWhole) (arg5 : Memref sig .tc .vmem S400x40 .f32) (harg5 : arg5.IsWhole) (arg6 : Memref sig .tc .vmem S10000x128 .bf16) (harg6 : arg6.IsWhole) (hc0 : ¬cond0_0 i)
    (x0 : Vec F S10000x128 .f32) (x1 : Vec F S128x128 .f32) (x2 : Vec F S128x40 .f32) (x3 : Vec F S400x10000 .f32) (xs0 : Vec F S10000x128 .bf16) :
    { L4 : List (View.Piece (Elt F) S400x40 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs0) -∗ K ⟨⟩))
          ⊢ wp frame (wpE (defs₀ (F := F)) Variants.none c none) E (cc0__pass_a_kernel i arg1 harg1 arg2 harg2 arg3 harg3 arg4 harg4 arg5 harg5 arg6 harg6) K } := by
  refine ⟨?_, fun E K => ?run⟩
  case run =>
    simp only [cc0__pass_a_kernel_eq_skeleton]; unfold cc0__pass_a_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS0

end Cert.Kernel.Hand

end
-- ==== Proof.K.Aggregate.lean ====
/-
  The first pass, point by point. After its first block the scratch holds x·W1 (the first block's stored pieces read
  back); every later block leaves the scratch as it found it. So the pass invariant is: before the first block every
  scoped buffer at anything; from then on the scratch at exactly that one table. Each output block holds what the body
  run of its case stored, over the point's input blocks (and, after the first block, over that table). From these:
  the pipeline's proof data and its body obligation at every point.
-/
import proofs.«156622_g16509854286320_cont_7to1_1500_4_alg».proof.Proof.K.FirstPoint
import proofs.«156622_g16509854286320_cont_7to1_1500_4_alg».proof.Proof.K.LaterPoints

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-! ## The stored pieces cover their buffers -/

theorem cover0_A_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128x40 .f32) (harg3 : arg3.IsWhole) (arg4 : Memref sig .tc .vmem S400x10000 .f32) (harg4 : arg4.IsWhole) (arg5 : Memref sig .tc .vmem S400x40 .f32) (harg5 : arg5.IsWhole) (arg6 : Memref sig .tc .vmem S10000x128 .bf16) (harg6 : arg6.IsWhole) (hc0 : cond0_0 i) (x0 : Vec F S10000x128 .f32) (x1 : Vec F S128x128 .f32) (x2 : Vec F S128x40 .f32) (x3 : Vec F S400x10000 .f32) (y : S400x40.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S400x40.size (by sl_kernel_rfl) y

theorem scover0_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128x40 .f32) (harg3 : arg3.IsWhole) (arg4 : Memref sig .tc .vmem S400x10000 .f32) (harg4 : arg4.IsWhole) (arg5 : Memref sig .tc .vmem S400x40 .f32) (harg5 : arg5.IsWhole) (arg6 : Memref sig .tc .vmem S10000x128 .bf16) (harg6 : arg6.IsWhole) (hc0 : cond0_0 i) (x0 : Vec F S10000x128 .f32) (x1 : Vec F S128x128 .f32) (x2 : Vec F S128x40 .f32) (x3 : Vec F S400x10000 .f32) (y : S10000x128.Idx) :
    ∃ pc ∈ (kernelRun0_A c i arg1 harg1 arg2 harg2 arg3 harg3 arg4 harg4 arg5 harg5 arg6 harg6 hc0 x0 x1 x2 x3).2.1, y ∈ pc.1.set :=
  View.cover_of_tiledL (kernelRun0_A c i arg1 harg1 arg2 harg2 arg3 harg3 arg4 harg4 arg5 harg5 arg6 harg6 hc0 x0 x1 x2 x3).2.1 S10000x128.size (by sl_kernel_rfl) y

theorem cover0_B_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128x40 .f32) (harg3 : arg3.IsWhole) (arg4 : Memref sig .tc .vmem S400x10000 .f32) (harg4 : arg4.IsWhole) (arg5 : Memref sig .tc .vmem S400x40 .f32) (harg5 : arg5.IsWhole) (arg6 : Memref sig .tc .vmem S10000x128 .bf16) (harg6 : arg6.IsWhole) (hc0 : ¬cond0_0 i) (x0 : Vec F S10000x128 .f32) (x1 : Vec F S128x128 .f32) (x2 : Vec F S128x40 .f32) (x3 : Vec F S400x10000 .f32) (xs0 : Vec F S10000x128 .bf16) (y : S400x40.Idx) :
    ∃ pc ∈ (kernelRun0_B c i arg1 harg1 arg2 harg2 arg3 harg3 arg4 harg4 arg5 harg5 arg6 harg6 hc0 x0 x1 x2 x3 xs0).1, y ∈ pc.1.set :=
  View.cover_of_tiledL (kernelRun0_B c i arg1 harg1 arg2 harg2 arg3 harg3 arg4 harg4 arg5 harg5 arg6 harg6 hc0 x0 x1 x2 x3 xs0).1 S400x40.size (by sl_kernel_rfl) y

/-! ## What each case leaves -/

/-- The output block after the first block's body: its pieces read back. -/
def out0_A_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128x40 .f32) (harg3 : arg3.IsWhole) (arg4 : Memref sig .tc .vmem S400x10000 .f32) (harg4 : arg4.IsWhole) (arg5 : Memref sig .tc .vmem S400x40 .f32) (harg5 : arg5.IsWhole) (arg6 : Memref sig .tc .vmem S10000x128 .bf16) (harg6 : arg6.IsWhole) (hc0 : cond0_0 i) (x0 : Vec F S10000x128 .f32) (x1 : Vec F S128x128 .f32) (x2 : Vec F S128x40 .f32) (x3 : Vec F S400x10000 .f32) : Vec F S400x40 .f32 :=
  VO0_4.read (Elt F) (VO0_4.writes (Elt F) VO0_4.junk (kernelRun0_A c i arg1 harg1 arg2 harg2 arg3 harg3 arg4 harg4 arg5 harg5 arg6 harg6 hc0 x0 x1 x2 x3).1)

/-- The scratch after the first block's body: its pieces read back. -/
def sout0_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128x40 .f32) (harg3 : arg3.IsWhole) (arg4 : Memref sig .tc .vmem S400x10000 .f32) (harg4 : arg4.IsWhole) (arg5 : Memref sig .tc .vmem S400x40 .f32) (harg5 : arg5.IsWhole) (arg6 : Memref sig .tc .vmem S10000x128 .bf16) (harg6 : arg6.IsWhole) (hc0 : cond0_0 i) (x0 : Vec F S10000x128 .f32) (x1 : Vec F S128x128 .f32) (x2 : Vec F S128x40 .f32) (x3 : Vec F S400x10000 .f32) : Vec F S10000x128 .bf16 :=
  VS0.read (Elt F) (VS0.writes (Elt F) VS0.junk (kernelRun0_A c i arg1 harg1 arg2 harg2 arg3 harg3 arg4 harg4 arg5 harg5 arg6 harg6 hc0 x0 x1 x2 x3).2.1)

/-- The output block after a later block's body: its pieces read back. -/
def out0_B_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128x40 .f32) (harg3 : arg3.IsWhole) (arg4 : Memref sig .tc .vmem S400x10000 .f32) (harg4 : arg4.IsWhole) (arg5 : Memref sig .tc .vmem S400x40 .f32) (harg5 : arg5.IsWhole) (arg6 : Memref sig .tc .vmem S10000x128 .bf16) (harg6 : arg6.IsWhole) (hc0 : ¬cond0_0 i) (x0 : Vec F S10000x128 .f32) (x1 : Vec F S128x128 .f32) (x2 : Vec F S128x40 .f32) (x3 : Vec F S400x10000 .f32) (xs0 : Vec F S10000x128 .bf16) : Vec F S400x40 .f32 :=
  VO0_4.read (Elt F) (VO0_4.writes (Elt F) VO0_4.junk (kernelRun0_B c i arg1 harg1 arg2 harg2 arg3 harg3 arg4 harg4 arg5 harg5 arg6 harg6 hc0 x0 x1 x2 x3 xs0).1)

/-! ## Point by point -/

/-- The first of the 25 points. -/
def t₀ : Fin cfg0.N := ⟨0, lt_of_lt_of_eq (Nat.zero_lt_succ 24) N_0.symm⟩

/-- The table the scratch holds from the first block on. -/
def S0 (c : Dev nD) : Vec F S10000x128 .bf16 :=
  sout0_A c (grid0.coords t₀) (ms0_0 t₀) (hs0_0 t₀) (ms0_1 t₀) (hs0_1 t₀) (ms0_2 t₀) (hs0_2 t₀) (ms0_3 t₀) (hs0_3 t₀) (ms0_4 t₀) (hs0_4 t₀) scM0 (Memref.isWhole_whole _) ((hcond0_0 t₀).mpr rfl) (iblk0 V c 0 t₀) (iblk0 V c 1 t₀) (iblk0 V c 2 t₀) (iblk0 V c 3 t₀)

/-- The output block after the body at point `t`. -/
def outAt0 (c : Dev nD) (t : Fin cfg0.N) : Vec F S400x40 .f32 :=
  if h : t.val = 0 then
    out0_A_4 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h) (iblk0 V c 0 t) (iblk0 V c 1 t) (iblk0 V c 2 t) (iblk0 V c 3 t)
  else
    out0_B_4 c (grid0.coords t) (ms0_0 t) (hs0_0 t) (ms0_1 t) (hs0_1 t) (ms0_2 t) (hs0_2 t) (ms0_3 t) (hs0_3 t) (ms0_4 t) (hs0_4 t) scM0 (Memref.isWhole_whole _) (fun hc => h ((hcond0_0 t).mp hc)) (iblk0 V c 0 t) (iblk0 V c 1 t) (iblk0 V c 2 t) (iblk0 V c 3 t) (S0 V c)

theorem outAt0_first (c : Dev nD) (t : Fin cfg0.N) (h : t.val = 0) :
    outAt0 V c t = out0_A_4 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h) (iblk0 V c 0 t) (iblk0 V c 1 t) (iblk0 V c 2 t) (iblk0 V c 3 t) := dif_pos h

theorem outAt0_later (c : Dev nD) (t : Fin cfg0.N) (h : ¬t.val = 0) :
    outAt0 V c t = out0_B_4 c (grid0.coords t) (ms0_0 t) (hs0_0 t) (ms0_1 t) (hs0_1 t) (ms0_2 t) (hs0_2 t) (ms0_3 t) (hs0_3 t) (ms0_4 t) (hs0_4 t) scM0 (Memref.isWhole_whole _) (fun hc => h ((hcond0_0 t).mp hc)) (iblk0 V c 0 t) (iblk0 V c 1 t) (iblk0 V c 2 t) (iblk0 V c 3 t) (S0 V c) := dif_neg h

/-- The pass invariant before position `n`: nothing known before the first block; afterwards the scratch at `S0`. -/
def PhiS (c : Dev nD) : (n : ℕ) → sProp 𝕄
  | 0 => Pipeline.ΦA spec0 c
  | _ + 1 => iprop(iprop(owns (c : Thread nD τ) scM0 fullShare (S0 V c) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r))

theorem PhiS_zero (c : Dev nD) (n : ℕ) (hz : n = 0) : PhiS V c n = Pipeline.ΦA spec0 c := by
  subst hz; rfl

theorem PhiS_succ (c : Dev nD) (n : ℕ) :
    PhiS V c (n + 1) = iprop(iprop(owns (c : Thread nD τ) scM0 fullShare (S0 V c) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := rfl

theorem PhiS_pos (c : Dev nD) (n : ℕ) (hz : n ≠ 0) :
    PhiS V c n = iprop(iprop(owns (c : Thread nD τ) scM0 fullShare (S0 V c) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  cases n with
  | zero => exact absurd rfl hz
  | succ n => rfl

/-! ## The pipeline's proof data -/

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0 V c t
  Φ t := PhiS V c t.val
  q _ := fullShare
  owed _ := 0

theorem A_eq0 (c : Dev nD) (w : Fin cfg0.W) : (dat0 V c).A w = V c (Pipeline.arrRef spec0 w) := by
  dsimp only [dat0]

theorem Phi_castSucc0 (c : Dev nD) (t : Fin cfg0.N) : (dat0 V c).Φ t.castSucc = PhiS V c t.val := rfl
theorem Phi_succ0 (c : Dev nD) (t : Fin cfg0.N) : (dat0 V c).Φ t.succ = PhiS V c (t.val + 1) := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 4800000 in
/-- The body at any point. At the first point the invariant hands over the scratch at anything and takes it back at
    `S0`; at a later point it hands the scratch over at `S0` and takes it back as it was. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, after0_4]
  rw [Phi_succ0, PhiS_succ, Phi_castSucc0]
  by_cases h0 : t.val = 0
  · have ht : t = t₀ := Fin.ext h0
    subst ht
    rw [PhiS_zero V c _ h0, PhiA0_eq, outAt0_first V c t₀ h0]
    unfold S0 sout0_A out0_A_4
    iintro ⟨⟨⟨HS0, HR⟩, Hg⟩, Ho, ⟨%d0, H0⟩, ⟨%d1, H1⟩, ⟨%d2, H2⟩, ⟨%d3, H3⟩, ⟨%d4, H4⟩⟩
    iapply ((kernelRun0_A c (grid0.coords t₀) _ _ _ _ _ _ _ _ _ _ _ _ ((hcond0_0 t₀).mpr h0) (iblk0 V c 0 t₀) (iblk0 V c 1 t₀) (iblk0 V c 2 t₀) (iblk0 V c 3 t₀)).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A c _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _ _ _)
  · rw [PhiS_pos V c _ h0, outAt0_later V c t h0]
    unfold out0_B_4
    iintro ⟨⟨⟨HS0, HR⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun hc => h0 ((hcond0_0 t).mp hc)) (iblk0 V c 0 t) (iblk0 V c 1 t) (iblk0 V c 2 t) (iblk0 V c 3 t) (S0 V c)).2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- What the launch hands the pass is the invariant before the first block. -/
theorem hin0 (c : Dev nD) : Pipeline.ΦA spec0 c ⊢ (dat0 V c).Φ 0 := by
  rw [show (dat0 V c).Φ 0 = PhiS V c 0 from rfl, PhiS_zero V c 0 rfl]

/-- After the last block the invariant gives the scoped buffers back at anything: the scratch's table is forgotten. -/
theorem hout0 (c : Dev nD) : (dat0 V c).Φ (Fin.last cfg0.N) ⊢ Pipeline.ΦA spec0 c := by
  rw [show (dat0 V c).Φ (Fin.last cfg0.N) = PhiS V c (Fin.last cfg0.N).val from rfl,
    PhiS_pos V c _ (by rw [Fin.val_last]; have : cfg0.N = 25 := N_0; omega), PhiA0_eq]
  iintro ⟨⟨HS0, HR⟩, Hg⟩
  isplitl [HS0 HR]
  · isplitl [HS0]; · iexists _; iexact HS0
    iexact HR
  iexact Hg

end Regions

end Cert.Kernel.Hand

end
-- ==== Proof.K.SoftmaxPass.lean ====
/-
  The second pass's body, the same at every block: it loads the adjacency block and the whole table the first pass
  produced, and stores log_softmax(relu(adj_block · table)) — each row minus its maximum, minus the logarithm of the
  row's sum of exponentials — over the whole output block. The pieces are what the symbolic run finds.
-/
import proofs.«156622_g16509854286320_cont_7to1_1500_4_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
noncomputable def kernelRun1 (c : Dev nD) (i : grid1.Coords) (arg1 : Memref sig .tc .vmem S10000x40 .f32) (harg1 : arg1.IsWhole) (arg2 : Memref sig .tc .vmem S400x10000 .f32) (harg2 : arg2.IsWhole) (arg3 : Memref sig .tc .vmem S400x40 .f32) (harg3 : arg3.IsWhole)
    (x0 : Vec F S10000x40 .f32) (x1 : Vec F S400x10000 .f32) :
    { L2 : List (View.Piece (Elt F) S400x40 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__pass_b_kernel i arg1 harg1 arg2 harg2 arg3 harg3) K } := by
  refine ⟨?_, fun E K => ?run⟩
  case run =>
    simp only [cc1__pass_b_kernel_eq_skeleton]; unfold cc1__pass_b_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.K.Classify.lean ====
/-
  The second pass, point by point: the same body at each of its 25 blocks, nothing kept between them. Each output
  block holds what the body run stored, over the point's adjacency block and the whole table of the first pass. From
  this: the pipeline's proof data and its body obligation; the pass invariant is the scoped buffers at anything.
-/
import proofs.«156622_g16509854286320_cont_7to1_1500_4_alg».proof.Proof.K.SoftmaxPass

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

theorem cover1_2 (c : Dev nD) (i : grid1.Coords) (arg1 : Memref sig .tc .vmem S10000x40 .f32) (harg1 : arg1.IsWhole) (arg2 : Memref sig .tc .vmem S400x10000 .f32) (harg2 : arg2.IsWhole) (arg3 : Memref sig .tc .vmem S400x40 .f32) (harg3 : arg3.IsWhole) (x0 : Vec F S10000x40 .f32) (x1 : Vec F S400x10000 .f32) (y : S400x40.Idx) :
    ∃ pc ∈ (kernelRun1 c i arg1 harg1 arg2 harg2 arg3 harg3 x0 x1).1, y ∈ pc.1.set :=
  View.cover_of_tiledL (kernelRun1 c i arg1 harg1 arg2 harg2 arg3 harg3 x0 x1).1 S400x40.size (by sl_kernel_rfl) y

/-- The output block after the body: its pieces read back. -/
def out1_2 (c : Dev nD) (i : grid1.Coords) (arg1 : Memref sig .tc .vmem S10000x40 .f32) (harg1 : arg1.IsWhole) (arg2 : Memref sig .tc .vmem S400x10000 .f32) (harg2 : arg2.IsWhole) (arg3 : Memref sig .tc .vmem S400x40 .f32) (harg3 : arg3.IsWhole) (x0 : Vec F S10000x40 .f32) (x1 : Vec F S400x10000 .f32) : Vec F S400x40 .f32 :=
  VO1_2.read (Elt F) (VO1_2.writes (Elt F) VO1_2.junk (kernelRun1 c i arg1 harg1 arg2 harg2 arg3 harg3 x0 x1).1)

/-- The output block after the body at point `t`. -/
def outAt1 (c : Dev nD) (t : Fin cfg1.N) : Vec F S400x40 .f32 :=
  out1_2 c (grid1.coords t) (ms1_0 t) (hs1_0 t) (ms1_1 t) (hs1_1 t) (ms1_2 t) (hs1_2 t) (iblk1 V c 0 t) (iblk1 V c 1 t)

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold outAt1 out1_2
  iintro ⟨HΦ, Ho, ⟨%d0, H0⟩, ⟨%d1, H1⟩, ⟨%d2, H2⟩⟩
  iapply ((kernelRun1 c (grid1.coords t) _ _ _ _ _ _ (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1_2 c _ _ _ _ _ _ _ _ _)

theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Run.lean ====
/-
  The whole program: the first pass, then the second, nothing on the host between them. The contents of every buffer
  that outlives a pass are followed from the launch (`W0`) through the first pass (`W1`: its arrays at what its
  write-backs leave, everything else untouched) and the second (`W2`). Each pass is a segment entered with every such
  buffer at the boundary's contents; the run ends with every such buffer at `W2`. Read at the four arguments this is
  that they end as launched (no pass writes one); read at the result it is what the second pass's write-backs leave.
-/
import proofs.«156622_g16509854286320_cont_7to1_1500_4_alg».proof.Proof.K.Aggregate
import proofs.«156622_g16509854286320_cont_7to1_1500_4_alg».proof.Proof.K.Classify

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents at each boundary -/

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## The arguments end as launched -/

/-- The adjacency matrix between the passes: the first pass only reads it. -/
theorem W1_main_arg1 (c : Dev nD) : W1 m ρ c (Proc.devRef .tc main_arg1) = m ((c : Thread nD τ).loc main_arg1) :=
  (W1_arr m ρ c 3).trans (((dat0 (V0 m ρ) c).arrAt_in 3 rfl _).trans (A_eq0 (V0 m ρ) c 3))

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 1).trans (((dat1 (V1 m ρ) c).arrAt_in 1 rfl _).trans (A_eq1 (V1 m ρ) c 1))
    _ = m ((c : Thread nD τ).loc main_arg1) := W1_main_arg1 m ρ c
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl

/-- The result is what the second pass's write-backs leave in its output window's array. -/
theorem W2_main_v0 (c : Dev nD) : W2 m ρ c (Proc.devRef .tc main_v0) = (dat1 (V1 m ρ) c).arrAt 2 cfg1.N :=
  W2_arr m ρ c 2
/-- The table between the passes is what the first pass's write-backs leave in its output window's array. -/
theorem W1_main_call0_v0 (c : Dev nD) : W1 m ρ c (Proc.devRef .tc main_call0_v0) = (dat0 (V0 m ρ) c).arrAt 4 cfg0.N :=
  W1_arr m ρ c 4

/-! ## The proof data family and the thread state -/

abbrev adm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through both passes: the generator register at some state, and nothing owed. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The passes as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = (dat0 (V0 m ρ) c).Φ (Fin.last cfg0.N) from rfl]
    have h := hout0 (V0 m ρ) c
    unfold Pipeline.ΦA at h
    iintro Hphi
    ihave Hback := (h) $$ Hphi
    icases Hback with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its two segments, and the launch -/

abbrev segs : List (Pipeline.Seg (pcfgs (F := F)) adm (pdats m ρ) () defs₀ 𝒱₀ L lv) :=
  [ .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution terminates, nothing faulting, and every buffer that outlives the passes ends at `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The same run read at the arguments and at the result. -/
theorem run_named : θ_run defs (onTc (τ := τ) (main (F := F))) ⟨m, fun _ => 0, ρ⟩ (fun r => ∀ c : Dev nD,
      r.2.mem ((c.tc : Thread nD τ).loc main_v0) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v0 (by decide))).trans (W2_main_v0 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_all m ρ)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_named m ρ)

end Cert.Kernel.Hand

end
-- ==== Proof.KI.Common.lean ====
/-
  What the two passes share. The first pass runs over 25 blocks of 400 rows of the adjacency matrix; at its
  first block it computes the projected features x·W1 once and keeps them in a scratch buffer that every later
  block reads. Here: each window's block at a grid point as the pass finds it in its array, the fact that an
  input's staging buffer holds that block at every point, the one branch condition of the first pass (first
  block or not), the staging memrefs as the pipeline passes them, and the pass invariant before the first block
  spelt buffer by buffer.
-/
import proofs.«156622_g16509854286320_cont_7to1_1500_4_alg».proof.Proof.Gen.KernelIdeal.Launch
import proofs.«156622_g16509854286320_cont_7to1_1500_4_alg».proof.Proof.Gen.KernelIdeal.Skeleton
import proofs.«156622_g16509854286320_cont_7to1_1500_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-! ## First pass: the windows' blocks -/

/-- Window `w`'s block at point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, fetched there or not. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## Second pass: the windows' blocks -/

/-- Window `w`'s block at point `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The first pass's branch: is this the first block? -/

/-- The condition under which the first pass computes x·W1 into its scratch: the grid coordinate is zero. -/
abbrev cond0_0 (i : grid0.Coords) : Prop := (Scalar.cmpi .ne (Scalar.extui (Scalar.cmpi .eq (BitVec.ofNat 32 (i 0).val) 0#32)) 0#32) = 1#1
/-- It holds at the first of the 25 points and at no other. -/
theorem hcond0_0 : ∀ t : Fin cfg0.N, cond0_0 (grid0.coords t) ↔ t.val = 0 :=
  (by decide +kernel : ∀ t : Fin grid0.N, cond0_0 (grid0.coords t) ↔ t.val = 0)

/-! ## The staging memrefs as the pipeline passes them -/

abbrev VO0_4 : View sig .tc .vmem S400x40 .f32 := (Memref.whole cc0_stg4_0 : Memref sig .tc .vmem S400x40 .f32).view
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x40 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S400x10000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S400x40 .f32 := win0_4.stage (cfg0.slots t 4)
abbrev hs0_4 (t : Fin cfg0.N) : (ms0_4 t).IsWhole := hstage0_4 ((cfg0.slots t 4).cast nbuf0_4)
/-- The scratch that keeps x·W1 between blocks, whole. -/
abbrev scM0 : Memref sig .tc .vmem S10000x128 .bf16 := Memref.whole cc0_scratch0
abbrev VS0 : View sig .tc .vmem S10000x128 .bf16 := scM0.view

abbrev VO1_2 : View sig .tc .vmem S400x40 .f32 := (Memref.whole cc1_stg2_0 : Memref sig .tc .vmem S400x40 .f32).view
abbrev ms1_0 (t : Fin cfg1.N) : Memref sig .tc .vmem S10000x40 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S400x10000 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S400x40 .f32 := win1_2.stage (cfg1.slots t 2)
abbrev hs1_2 (t : Fin cfg1.N) : (ms1_2 t).IsWhole := hstage1_2 ((cfg1.slots t 2).cast nbuf1_2)

/-- Before the first block the first pass holds its scratch, and the second pass's staging buffers, at any contents,
    and the generator register at some state. -/
theorem PhiA0_eq (c : Dev nD) :
    (Pipeline.ΦA spec0 c : sProp 𝕄)
      = iprop(iprop((∃ d, owns (c : Thread nD τ) scM0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [scM0, owns_whole]; try rfl

end Cert.KernelIdeal.Hand

end
-- ==== Proof.KI.FirstPoint.lean ====
/-
  The first pass's body at its FIRST block. It loads x and W1, stores their product (rounded to bf16, which at the
  exact instance is no change) over the whole scratch, loads the adjacency block, loads the scratch back, and stores
  relu(adj_block · scratch) · W2 over the whole output block. Stated as: from the inputs' staging buffers at given
  contents, the output block and the scratch at anything, the body runs and leaves the inputs as they were and the
  output block and the scratch with the listed pieces written; the pieces are what the symbolic run finds.
-/
import proofs.«156622_g16509854286320_cont_7to1_1500_4_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
noncomputable def kernelRun0_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128x40 .f32) (harg3 : arg3.IsWhole) (arg4 : Memref sig .tc .vmem S400x10000 .f32) (harg4 : arg4.IsWhole) (arg5 : Memref sig .tc .vmem S400x40 .f32) (harg5 : arg5.IsWhole) (arg6 : Memref sig .tc .vmem S10000x128 .bf16) (harg6 : arg6.IsWhole) (hc0 : cond0_0 i)
    (x0 : Vec F S10000x128 .f32) (x1 : Vec F S128x128 .f32) (x2 : Vec F S128x40 .f32) (x3 : Vec F S400x10000 .f32) :
    Σ' (L4 : List (View.Piece (Elt F) S400x40 .f32)), { LS0 : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0__pass_a_kernel i arg1 harg1 arg2 harg2 arg3 harg3 arg4 harg4 arg5 harg5 arg6 harg6) K } := by
  refine ⟨?_, ?_, fun E K => ?run⟩
  case run =>
    simp only [cc0__pass_a_kernel_eq_skeleton]; unfold cc0__pass_a_kernel_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.KernelIdeal.Hand

end
-- ==== Proof.KI.LaterPoints.lean ====
/-
  The first pass's body at every LATER block. The branch is not taken: the body loads the adjacency block, loads the
  scratch (which still holds what the first block stored), and stores relu(adj_block · scratch) · W2 over the whole
  output block. The scratch goes in at given contents and comes back untouched.
-/
import proofs.«156622_g16509854286320_cont_7to1_1500_4_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
noncomputable def kernelRun0_B (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128x40 .f32) (harg3 : arg3.IsWhole) (arg4 : Memref sig .tc .vmem S400x10000 .f32) (harg4 : arg4.IsWhole) (arg5 : Memref sig .tc .vmem S400x40 .f32) (harg5 : arg5.IsWhole) (arg6 : Memref sig .tc .vmem S10000x128 .bf16) (harg6 : arg6.IsWhole) (hc0 : ¬cond0_0 i)
    (x0 : Vec F S10000x128 .f32) (x1 : Vec F S128x128 .f32) (x2 : Vec F S128x40 .f32) (x3 : Vec F S400x10000 .f32) (xs0 : Vec F S10000x128 .bf16) :
    { L4 : List (View.Piece (Elt F) S400x40 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs0) -∗ K ⟨⟩))
          ⊢ wp frame (wpE (defs₀ (F := F)) Variants.none c none) E (cc0__pass_a_kernel i arg1 harg1 arg2 harg2 arg3 harg3 arg4 harg4 arg5 harg5 arg6 harg6) K } := by
  refine ⟨?_, fun E K => ?run⟩
  case run =>
    simp only [cc0__pass_a_kernel_eq_skeleton]; unfold cc0__pass_a_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS0

end Cert.KernelIdeal.Hand

end
-- ==== Proof.KI.Aggregate.lean ====
/-
  The first pass, point by point. After its first block the scratch holds x·W1 (the first block's stored pieces read
  back); every later block leaves the scratch as it found it. So the pass invariant is: before the first block every
  scoped buffer at anything; from then on the scratch at exactly that one table. Each output block holds what the body
  run of its case stored, over the point's input blocks (and, after the first block, over that table). From these:
  the pipeline's proof data and its body obligation at every point.
-/
import proofs.«156622_g16509854286320_cont_7to1_1500_4_alg».proof.Proof.KI.FirstPoint
import proofs.«156622_g16509854286320_cont_7to1_1500_4_alg».proof.Proof.KI.LaterPoints

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

/-! ## The stored pieces cover their buffers -/

theorem cover0_A_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128x40 .f32) (harg3 : arg3.IsWhole) (arg4 : Memref sig .tc .vmem S400x10000 .f32) (harg4 : arg4.IsWhole) (arg5 : Memref sig .tc .vmem S400x40 .f32) (harg5 : arg5.IsWhole) (arg6 : Memref sig .tc .vmem S10000x128 .bf16) (harg6 : arg6.IsWhole) (hc0 : cond0_0 i) (x0 : Vec F S10000x128 .f32) (x1 : Vec F S128x128 .f32) (x2 : Vec F S128x40 .f32) (x3 : Vec F S400x10000 .f32) (y : S400x40.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S400x40.size (by sl_kernel_rfl) y

theorem scover0_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128x40 .f32) (harg3 : arg3.IsWhole) (arg4 : Memref sig .tc .vmem S400x10000 .f32) (harg4 : arg4.IsWhole) (arg5 : Memref sig .tc .vmem S400x40 .f32) (harg5 : arg5.IsWhole) (arg6 : Memref sig .tc .vmem S10000x128 .bf16) (harg6 : arg6.IsWhole) (hc0 : cond0_0 i) (x0 : Vec F S10000x128 .f32) (x1 : Vec F S128x128 .f32) (x2 : Vec F S128x40 .f32) (x3 : Vec F S400x10000 .f32) (y : S10000x128.Idx) :
    ∃ pc ∈ (kernelRun0_A c i arg1 harg1 arg2 harg2 arg3 harg3 arg4 harg4 arg5 harg5 arg6 harg6 hc0 x0 x1 x2 x3).2.1, y ∈ pc.1.set :=
  View.cover_of_tiledL (kernelRun0_A c i arg1 harg1 arg2 harg2 arg3 harg3 arg4 harg4 arg5 harg5 arg6 harg6 hc0 x0 x1 x2 x3).2.1 S10000x128.size (by sl_kernel_rfl) y

theorem cover0_B_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128x40 .f32) (harg3 : arg3.IsWhole) (arg4 : Memref sig .tc .vmem S400x10000 .f32) (harg4 : arg4.IsWhole) (arg5 : Memref sig .tc .vmem S400x40 .f32) (harg5 : arg5.IsWhole) (arg6 : Memref sig .tc .vmem S10000x128 .bf16) (harg6 : arg6.IsWhole) (hc0 : ¬cond0_0 i) (x0 : Vec F S10000x128 .f32) (x1 : Vec F S128x128 .f32) (x2 : Vec F S128x40 .f32) (x3 : Vec F S400x10000 .f32) (xs0 : Vec F S10000x128 .bf16) (y : S400x40.Idx) :
    ∃ pc ∈ (kernelRun0_B c i arg1 harg1 arg2 harg2 arg3 harg3 arg4 harg4 arg5 harg5 arg6 harg6 hc0 x0 x1 x2 x3 xs0).1, y ∈ pc.1.set :=
  View.cover_of_tiledL (kernelRun0_B c i arg1 harg1 arg2 harg2 arg3 harg3 arg4 harg4 arg5 harg5 arg6 harg6 hc0 x0 x1 x2 x3 xs0).1 S400x40.size (by sl_kernel_rfl) y

/-! ## What each case leaves -/

/-- The output block after the first block's body: its pieces read back. -/
def out0_A_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128x40 .f32) (harg3 : arg3.IsWhole) (arg4 : Memref sig .tc .vmem S400x10000 .f32) (harg4 : arg4.IsWhole) (arg5 : Memref sig .tc .vmem S400x40 .f32) (harg5 : arg5.IsWhole) (arg6 : Memref sig .tc .vmem S10000x128 .bf16) (harg6 : arg6.IsWhole) (hc0 : cond0_0 i) (x0 : Vec F S10000x128 .f32) (x1 : Vec F S128x128 .f32) (x2 : Vec F S128x40 .f32) (x3 : Vec F S400x10000 .f32) : Vec F S400x40 .f32 :=
  VO0_4.read (Elt F) (VO0_4.writes (Elt F) VO0_4.junk (kernelRun0_A c i arg1 harg1 arg2 harg2 arg3 harg3 arg4 harg4 arg5 harg5 arg6 harg6 hc0 x0 x1 x2 x3).1)

/-- The scratch after the first block's body: its pieces read back. -/
def sout0_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128x40 .f32) (harg3 : arg3.IsWhole) (arg4 : Memref sig .tc .vmem S400x10000 .f32) (harg4 : arg4.IsWhole) (arg5 : Memref sig .tc .vmem S400x40 .f32) (harg5 : arg5.IsWhole) (arg6 : Memref sig .tc .vmem S10000x128 .bf16) (harg6 : arg6.IsWhole) (hc0 : cond0_0 i) (x0 : Vec F S10000x128 .f32) (x1 : Vec F S128x128 .f32) (x2 : Vec F S128x40 .f32) (x3 : Vec F S400x10000 .f32) : Vec F S10000x128 .bf16 :=
  VS0.read (Elt F) (VS0.writes (Elt F) VS0.junk (kernelRun0_A c i arg1 harg1 arg2 harg2 arg3 harg3 arg4 harg4 arg5 harg5 arg6 harg6 hc0 x0 x1 x2 x3).2.1)

/-- The output block after a later block's body: its pieces read back. -/
def out0_B_4 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128x40 .f32) (harg3 : arg3.IsWhole) (arg4 : Memref sig .tc .vmem S400x10000 .f32) (harg4 : arg4.IsWhole) (arg5 : Memref sig .tc .vmem S400x40 .f32) (harg5 : arg5.IsWhole) (arg6 : Memref sig .tc .vmem S10000x128 .bf16) (harg6 : arg6.IsWhole) (hc0 : ¬cond0_0 i) (x0 : Vec F S10000x128 .f32) (x1 : Vec F S128x128 .f32) (x2 : Vec F S128x40 .f32) (x3 : Vec F S400x10000 .f32) (xs0 : Vec F S10000x128 .bf16) : Vec F S400x40 .f32 :=
  VO0_4.read (Elt F) (VO0_4.writes (Elt F) VO0_4.junk (kernelRun0_B c i arg1 harg1 arg2 harg2 arg3 harg3 arg4 harg4 arg5 harg5 arg6 harg6 hc0 x0 x1 x2 x3 xs0).1)

/-! ## Point by point -/

/-- The first of the 25 points. -/
def t₀ : Fin cfg0.N := ⟨0, lt_of_lt_of_eq (Nat.zero_lt_succ 24) N_0.symm⟩

/-- The table the scratch holds from the first block on. -/
def S0 (c : Dev nD) : Vec F S10000x128 .bf16 :=
  sout0_A c (grid0.coords t₀) (ms0_0 t₀) (hs0_0 t₀) (ms0_1 t₀) (hs0_1 t₀) (ms0_2 t₀) (hs0_2 t₀) (ms0_3 t₀) (hs0_3 t₀) (ms0_4 t₀) (hs0_4 t₀) scM0 (Memref.isWhole_whole _) ((hcond0_0 t₀).mpr rfl) (iblk0 V c 0 t₀) (iblk0 V c 1 t₀) (iblk0 V c 2 t₀) (iblk0 V c 3 t₀)

/-- The output block after the body at point `t`. -/
def outAt0 (c : Dev nD) (t : Fin cfg0.N) : Vec F S400x40 .f32 :=
  if h : t.val = 0 then
    out0_A_4 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h) (iblk0 V c 0 t) (iblk0 V c 1 t) (iblk0 V c 2 t) (iblk0 V c 3 t)
  else
    out0_B_4 c (grid0.coords t) (ms0_0 t) (hs0_0 t) (ms0_1 t) (hs0_1 t) (ms0_2 t) (hs0_2 t) (ms0_3 t) (hs0_3 t) (ms0_4 t) (hs0_4 t) scM0 (Memref.isWhole_whole _) (fun hc => h ((hcond0_0 t).mp hc)) (iblk0 V c 0 t) (iblk0 V c 1 t) (iblk0 V c 2 t) (iblk0 V c 3 t) (S0 V c)

theorem outAt0_first (c : Dev nD) (t : Fin cfg0.N) (h : t.val = 0) :
    outAt0 V c t = out0_A_4 c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h) (iblk0 V c 0 t) (iblk0 V c 1 t) (iblk0 V c 2 t) (iblk0 V c 3 t) := dif_pos h

theorem outAt0_later (c : Dev nD) (t : Fin cfg0.N) (h : ¬t.val = 0) :
    outAt0 V c t = out0_B_4 c (grid0.coords t) (ms0_0 t) (hs0_0 t) (ms0_1 t) (hs0_1 t) (ms0_2 t) (hs0_2 t) (ms0_3 t) (hs0_3 t) (ms0_4 t) (hs0_4 t) scM0 (Memref.isWhole_whole _) (fun hc => h ((hcond0_0 t).mp hc)) (iblk0 V c 0 t) (iblk0 V c 1 t) (iblk0 V c 2 t) (iblk0 V c 3 t) (S0 V c) := dif_neg h

/-- The pass invariant before position `n`: nothing known before the first block; afterwards the scratch at `S0`. -/
def PhiS (c : Dev nD) : (n : ℕ) → sProp 𝕄
  | 0 => Pipeline.ΦA spec0 c
  | _ + 1 => iprop(iprop(owns (c : Thread nD τ) scM0 fullShare (S0 V c) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r))

theorem PhiS_zero (c : Dev nD) (n : ℕ) (hz : n = 0) : PhiS V c n = Pipeline.ΦA spec0 c := by
  subst hz; rfl

theorem PhiS_succ (c : Dev nD) (n : ℕ) :
    PhiS V c (n + 1) = iprop(iprop(owns (c : Thread nD τ) scM0 fullShare (S0 V c) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := rfl

theorem PhiS_pos (c : Dev nD) (n : ℕ) (hz : n ≠ 0) :
    PhiS V c n = iprop(iprop(owns (c : Thread nD τ) scM0 fullShare (S0 V c) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  cases n with
  | zero => exact absurd rfl hz
  | succ n => rfl

/-! ## The pipeline's proof data -/

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outAt0 V c t
  Φ t := PhiS V c t.val
  q _ := fullShare
  owed _ := 0

theorem A_eq0 (c : Dev nD) (w : Fin cfg0.W) : (dat0 V c).A w = V c (Pipeline.arrRef spec0 w) := by
  dsimp only [dat0]

theorem Phi_castSucc0 (c : Dev nD) (t : Fin cfg0.N) : (dat0 V c).Φ t.castSucc = PhiS V c t.val := rfl
theorem Phi_succ0 (c : Dev nD) (t : Fin cfg0.N) : (dat0 V c).Φ t.succ = PhiS V c (t.val + 1) := rfl

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outAt0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 4800000 in
/-- The body at any point. At the first point the invariant hands over the scratch at anything and takes it back at
    `S0`; at a later point it hands the scratch over at `S0` and takes it back as it was. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, after0_4]
  rw [Phi_succ0, PhiS_succ, Phi_castSucc0]
  by_cases h0 : t.val = 0
  · have ht : t = t₀ := Fin.ext h0
    subst ht
    rw [PhiS_zero V c _ h0, PhiA0_eq, outAt0_first V c t₀ h0]
    unfold S0 sout0_A out0_A_4
    iintro ⟨⟨⟨HS0, HR⟩, Hg⟩, Ho, ⟨%d0, H0⟩, ⟨%d1, H1⟩, ⟨%d2, H2⟩, ⟨%d3, H3⟩, ⟨%d4, H4⟩⟩
    iapply ((kernelRun0_A c (grid0.coords t₀) _ _ _ _ _ _ _ _ _ _ _ _ ((hcond0_0 t₀).mpr h0) (iblk0 V c 0 t₀) (iblk0 V c 1 t₀) (iblk0 V c 2 t₀) (iblk0 V c 3 t₀)).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A c _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _ _ _)
  · rw [PhiS_pos V c _ h0, outAt0_later V c t h0]
    unfold out0_B_4
    iintro ⟨⟨⟨HS0, HR⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun hc => h0 ((hcond0_0 t).mp hc)) (iblk0 V c 0 t) (iblk0 V c 1 t) (iblk0 V c 2 t) (iblk0 V c 3 t) (S0 V c)).2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, HS0⟩
    isplitl [HS0 HR Hg]
    · isplitl [HS0 HR]
      · isplitl [HS0]; · iexact HS0
        iexact HR
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _ _ _)

theorem body_obligation0 (c : Dev nD) : BodyObligation (dat0 (F := F) V c) (defs₀ (F := F)) Variants.none () Set.univ := fun t => by
  rw [bigSep_W0, bigSep_W0]
  exact sound_body0 V c t

/-- What the launch hands the pass is the invariant before the first block. -/
theorem hin0 (c : Dev nD) : Pipeline.ΦA spec0 c ⊢ (dat0 V c).Φ 0 := by
  rw [show (dat0 V c).Φ 0 = PhiS V c 0 from rfl, PhiS_zero V c 0 rfl]

/-- After the last block the invariant gives the scoped buffers back at anything: the scratch's table is forgotten. -/
theorem hout0 (c : Dev nD) : (dat0 V c).Φ (Fin.last cfg0.N) ⊢ Pipeline.ΦA spec0 c := by
  rw [show (dat0 V c).Φ (Fin.last cfg0.N) = PhiS V c (Fin.last cfg0.N).val from rfl,
    PhiS_pos V c _ (by rw [Fin.val_last]; have : cfg0.N = 25 := N_0; omega), PhiA0_eq]
  iintro ⟨⟨HS0, HR⟩, Hg⟩
  isplitl [HS0 HR]
  · isplitl [HS0]; · iexists _; iexact HS0
    iexact HR
  iexact Hg

end Regions

end Cert.KernelIdeal.Hand

end
-- ==== Proof.KI.SoftmaxPass.lean ====
/-
  The second pass's body, the same at every block: it loads the adjacency block and the whole table the first pass
  produced, and stores log_softmax(relu(adj_block · table)) — each row minus its maximum, minus the logarithm of the
  row's sum of exponentials — over the whole output block. The pieces are what the symbolic run finds.
-/
import proofs.«156622_g16509854286320_cont_7to1_1500_4_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 2000000 in
noncomputable def kernelRun1 (c : Dev nD) (i : grid1.Coords) (arg1 : Memref sig .tc .vmem S10000x40 .f32) (harg1 : arg1.IsWhole) (arg2 : Memref sig .tc .vmem S400x10000 .f32) (harg2 : arg2.IsWhole) (arg3 : Memref sig .tc .vmem S400x40 .f32) (harg3 : arg3.IsWhole)
    (x0 : Vec F S10000x40 .f32) (x1 : Vec F S400x10000 .f32) :
    { L2 : List (View.Piece (Elt F) S400x40 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__pass_b_kernel i arg1 harg1 arg2 harg2 arg3 harg3) K } := by
  refine ⟨?_, fun E K => ?run⟩
  case run =>
    simp only [cc1__pass_b_kernel_eq_skeleton]; unfold cc1__pass_b_kernel_skel
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.KI.Classify.lean ====
/-
  The second pass, point by point: the same body at each of its 25 blocks, nothing kept between them. Each output
  block holds what the body run stored, over the point's adjacency block and the whole table of the first pass. From
  this: the pipeline's proof data and its body obligation; the pass invariant is the scoped buffers at anything.
-/
import proofs.«156622_g16509854286320_cont_7to1_1500_4_alg».proof.Proof.KI.SoftmaxPass

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Regions
variable (V : (c : Dev nD) → (b : Ref sig .tc) → Buf (Elt F) ((c : Thread nD τ).loc b))

theorem cover1_2 (c : Dev nD) (i : grid1.Coords) (arg1 : Memref sig .tc .vmem S10000x40 .f32) (harg1 : arg1.IsWhole) (arg2 : Memref sig .tc .vmem S400x10000 .f32) (harg2 : arg2.IsWhole) (arg3 : Memref sig .tc .vmem S400x40 .f32) (harg3 : arg3.IsWhole) (x0 : Vec F S10000x40 .f32) (x1 : Vec F S400x10000 .f32) (y : S400x40.Idx) :
    ∃ pc ∈ (kernelRun1 c i arg1 harg1 arg2 harg2 arg3 harg3 x0 x1).1, y ∈ pc.1.set :=
  View.cover_of_tiledL (kernelRun1 c i arg1 harg1 arg2 harg2 arg3 harg3 x0 x1).1 S400x40.size (by sl_kernel_rfl) y

/-- The output block after the body: its pieces read back. -/
def out1_2 (c : Dev nD) (i : grid1.Coords) (arg1 : Memref sig .tc .vmem S10000x40 .f32) (harg1 : arg1.IsWhole) (arg2 : Memref sig .tc .vmem S400x10000 .f32) (harg2 : arg2.IsWhole) (arg3 : Memref sig .tc .vmem S400x40 .f32) (harg3 : arg3.IsWhole) (x0 : Vec F S10000x40 .f32) (x1 : Vec F S400x10000 .f32) : Vec F S400x40 .f32 :=
  VO1_2.read (Elt F) (VO1_2.writes (Elt F) VO1_2.junk (kernelRun1 c i arg1 harg1 arg2 harg2 arg3 harg3 x0 x1).1)

/-- The output block after the body at point `t`. -/
def outAt1 (c : Dev nD) (t : Fin cfg1.N) : Vec F S400x40 .f32 :=
  out1_2 c (grid1.coords t) (ms1_0 t) (hs1_0 t) (ms1_1 t) (hs1_1 t) (ms1_2 t) (hs1_2 t) (iblk1 V c 0 t) (iblk1 V c 1 t)

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => outAt1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold outAt1 out1_2
  iintro ⟨HΦ, Ho, ⟨%d0, H0⟩, ⟨%d1, H1⟩, ⟨%d2, H2⟩⟩
  iapply ((kernelRun1 c (grid1.coords t) _ _ _ _ _ _ (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1_2 c _ _ _ _ _ _ _ _ _)

theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Run.lean ====
/-
  The whole program: the first pass, then the second, nothing on the host between them. The contents of every buffer
  that outlives a pass are followed from the launch (`W0`) through the first pass (`W1`: its arrays at what its
  write-backs leave, everything else untouched) and the second (`W2`). Each pass is a segment entered with every such
  buffer at the boundary's contents; the run ends with every such buffer at `W2`. Read at the four arguments this is
  that they end as launched (no pass writes one); read at the result it is what the second pass's write-backs leave.
-/
import proofs.«156622_g16509854286320_cont_7to1_1500_4_alg».proof.Proof.KI.Aggregate
import proofs.«156622_g16509854286320_cont_7to1_1500_4_alg».proof.Proof.KI.Classify

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents at each boundary -/

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ## The arguments end as launched -/

/-- The adjacency matrix between the passes: the first pass only reads it. -/
theorem W1_main_arg1 (c : Dev nD) : W1 m ρ c (Proc.devRef .tc main_arg1) = m ((c : Thread nD τ).loc main_arg1) :=
  (W1_arr m ρ c 3).trans (((dat0 (V0 m ρ) c).arrAt_in 3 rfl _).trans (A_eq0 (V0 m ρ) c 3))

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 1).trans (((dat1 (V1 m ρ) c).arrAt_in 1 rfl _).trans (A_eq1 (V1 m ρ) c 1))
    _ = m ((c : Thread nD τ).loc main_arg1) := W1_main_arg1 m ρ c
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (W1_arr m ρ c 2).trans (((dat0 (V0 m ρ) c).arrAt_in 2 rfl _).trans (A_eq0 (V0 m ρ) c 2))
    _ = m ((c : Thread nD τ).loc main_arg3) := rfl

/-- The result is what the second pass's write-backs leave in its output window's array. -/
theorem W2_main_v0 (c : Dev nD) : W2 m ρ c (Proc.devRef .tc main_v0) = (dat1 (V1 m ρ) c).arrAt 2 cfg1.N :=
  W2_arr m ρ c 2
/-- The table between the passes is what the first pass's write-backs leave in its output window's array. -/
theorem W1_main_call0_v0 (c : Dev nD) : W1 m ρ c (Proc.devRef .tc main_call0_v0) = (dat0 (V0 m ρ) c).arrAt 4 cfg0.N :=
  W1_arr m ρ c 4

/-! ## The proof data family and the thread state -/

abbrev adm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through both passes: the generator register at some state, and nothing owed. -/
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The passes as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = (dat0 (V0 m ρ) c).Φ (Fin.last cfg0.N) from rfl]
    have h := hout0 (V0 m ρ) c
    unfold Pipeline.ΦA at h
    iintro Hphi
    ihave Hback := (h) $$ Hphi
    icases Hback with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its two segments, and the launch -/

abbrev segs : List (Pipeline.Seg (pcfgs (F := F)) adm (pdats m ρ) () defs₀ 𝒱₀ L lv) :=
  [ .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution terminates, nothing faulting, and every buffer that outlives the passes ends at `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The same run read at the arguments and at the result. -/
theorem run_named : θ_run defs (onTc (τ := τ) (main (F := F))) ⟨m, fun _ => 0, ρ⟩ (fun r => ∀ c : Dev nD,
      r.2.mem ((c.tc : Thread nD τ).loc main_v0) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v0 (by decide))).trans (W2_main_v0 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_all m ρ)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_named m ρ)

end Cert.KernelIdeal.Hand

end
-- ==== Proof.KI.Pieces.lean ====
/-
  What the body runs found, read as arithmetic. Each run left its stores as pieces over loads; here each buffer's
  contents after a run is ONE application of the body's payload to the contents the run was handed: the scratch after
  the first block is the projection payload of x and W1; the output block of the first pass is the table payload of the
  adjacency block, the scratch's table and W2 (at the first block the scratch's table is the one just stored); the
  output block of the second pass is the classification payload of the adjacency block and the first pass's table.
-/
import proofs.«156622_g16509854286320_cont_7to1_1500_4_alg».proof.Proof.KI.Aggregate
import proofs.«156622_g16509854286320_cont_7to1_1500_4_alg».proof.Proof.KI.Classify
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem hz : (![0, 0] : Fin 2 → Nat) = fun _ => 0 := funext fun a => by fin_cases a <;> rfl

/-- The scratch after the first block: the projection payload of the loaded x and W1. -/
theorem sout0_A_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128x40 .f32) (harg3 : arg3.IsWhole) (arg4 : Memref sig .tc .vmem S400x10000 .f32) (harg4 : arg4.IsWhole) (arg5 : Memref sig .tc .vmem S400x40 .f32) (harg5 : arg5.IsWhole) (arg6 : Memref sig .tc .vmem S10000x128 .bf16) (harg6 : arg6.IsWhole) (hc0 : cond0_0 i) (x0 : Vec F S10000x128 .f32) (x1 : Vec F S128x128 .f32) (x2 : Vec F S128x40 .f32) (x3 : Vec F S400x10000 .f32) :
    sout0_A c i arg1 harg1 arg2 harg2 arg3 harg3 arg4 harg4 arg5 harg5 arg6 harg6 hc0 x0 x1 x2 x3 = k0_pay1 x0 x1 := by
  unfold sout0_A
  rw [View.read_writes_eq_canon _ _ _ (scover0_A c i arg1 harg1 arg2 harg2 arg3 harg3 arg4 harg4 arg5 harg5 arg6 harg6 hc0 x0 x1 x2 x3)]
  unfold kernelRun0_A
  dsimp only
  try sl_unfold_words
  rw [View.canon_unit_zero hz]
  simp only [View.readAt_eq_ld, harg1.read_unread, harg2.read_unread, View.ld_unit_zero (S := S10000x128) hz, View.ld_unit_zero (S := S128x128) hz]

/-- The output block after the first block: the table payload over the table just stored. -/
theorem out0_A_4_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128x40 .f32) (harg3 : arg3.IsWhole) (arg4 : Memref sig .tc .vmem S400x10000 .f32) (harg4 : arg4.IsWhole) (arg5 : Memref sig .tc .vmem S400x40 .f32) (harg5 : arg5.IsWhole) (arg6 : Memref sig .tc .vmem S10000x128 .bf16) (harg6 : arg6.IsWhole) (hc0 : cond0_0 i) (x0 : Vec F S10000x128 .f32) (x1 : Vec F S128x128 .f32) (x2 : Vec F S128x40 .f32) (x3 : Vec F S400x10000 .f32) :
    out0_A_4 c i arg1 harg1 arg2 harg2 arg3 harg3 arg4 harg4 arg5 harg5 arg6 harg6 hc0 x0 x1 x2 x3 = k0_pay2 x3 (k0_pay1 x0 x1) x2 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  try sl_unfold_words
  rw [View.canon_unit_zero hz, View.readCov_unit_zero (S := S10000x128) _ hz]
  simp only [View.readAt_eq_ld, harg1.read_unread, harg2.read_unread, harg3.read_unread, harg4.read_unread, View.ld_unit_zero (S := S10000x128) hz, View.ld_unit_zero (S := S128x128) hz, View.ld_unit_zero (S := S128x40) hz, View.ld_unit_zero (S := S400x10000) hz]

/-- The output block after a later block: the table payload over the table the scratch carries. -/
theorem out0_B_4_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S128x40 .f32) (harg3 : arg3.IsWhole) (arg4 : Memref sig .tc .vmem S400x10000 .f32) (harg4 : arg4.IsWhole) (arg5 : Memref sig .tc .vmem S400x40 .f32) (harg5 : arg5.IsWhole) (arg6 : Memref sig .tc .vmem S10000x128 .bf16) (harg6 : arg6.IsWhole) (hc0 : ¬cond0_0 i) (x0 : Vec F S10000x128 .f32) (x1 : Vec F S128x128 .f32) (x2 : Vec F S128x40 .f32) (x3 : Vec F S400x10000 .f32) (xs0 : Vec F S10000x128 .bf16) :
    out0_B_4 c i arg1 harg1 arg2 harg2 arg3 harg3 arg4 harg4 arg5 harg5 arg6 harg6 hc0 x0 x1 x2 x3 xs0 = k0_pay2 x3 xs0 x2 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  try sl_unfold_words
  rw [View.canon_unit_zero hz]
  simp only [View.readAt_eq_ld, harg3.read_unread, harg4.read_unread, harg6.read_unread, View.ld_unit_zero (S := S10000x128) hz, View.ld_unit_zero (S := S128x40) hz, View.ld_unit_zero (S := S400x10000) hz]

/-- The second pass's output block: the classification payload of the adjacency block and the table. -/
theorem out1_2_eq (c : Dev nD) (i : grid1.Coords) (arg1 : Memref sig .tc .vmem S10000x40 .f32) (harg1 : arg1.IsWhole) (arg2 : Memref sig .tc .vmem S400x10000 .f32) (harg2 : arg2.IsWhole) (arg3 : Memref sig .tc .vmem S400x40 .f32) (harg3 : arg3.IsWhole) (x0 : Vec F S10000x40 .f32) (x1 : Vec F S400x10000 .f32) :
    out1_2 c i arg1 harg1 arg2 harg2 arg3 harg3 x0 x1 = k1_pay1 x1 x0 := by
  unfold out1_2
  rw [View.read_writes_eq_canon _ _ _ (cover1_2 c i arg1 harg1 arg2 harg2 arg3 harg3 x0 x1)]
  unfold kernelRun1
  dsimp only
  try sl_unfold_words
  rw [View.canon_unit_zero hz]
  simp only [View.readAt_eq_ld, harg1.read_unread, harg2.read_unread, View.ld_unit_zero (S := S10000x40) hz, View.ld_unit_zero (S := S400x10000) hz]

end Cert.KernelIdeal.Hand

end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.LibHostRead.lean ====
/-
  Small layout operations of a host program, read at an index, generic in the sizes.

  * A vector `[a]` broadcast to a column `[a, 1]` reads the vector at the row (`bcastCol_apply`); a scalar broadcast
    to any shape reads the scalar (`bcastScalar_apply`); a vector `[b]` broadcast to a row `[1, b]` and then to
    `[a, b]` reads the vector at the column (`bcastRow_apply`).
  * Row `r` of a two-row array `[2, E]`, sliced out as `[1, E]` and reshaped to `[E]`, reads the array at `(r, e)`
    (`rowSlice_apply`).
  * The plain product of an `A × K` by a `K × B` matrix over the extended reals, read at `(i, j)`, is the sum over
    the contracted coordinate of the products of the entries: for the host's product (`plainDot_apply`) and for the
    kernel's product accumulated into a zero constant (`plainMatmul_zero_apply`).
-/
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.LibHR

open Idealize.ShloMosaic Idealize.ShloMosaic.ValueIdx

/-! ## Broadcasts -/

/-- A vector broadcast to a one-column matrix reads the vector at the row. -/
theorem bcastCol_apply {α : Type} {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun b => match b with
    | ⟨0, _⟩ => by
      show i.val = if a = 1 then 0 else i.val
      split
      · have := i.isLt; omega
      · rfl)

/-- A scalar broadcast to any shape reads the scalar. -/
theorem bcastScalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun b => b.elim0)

/-- A vector broadcast to a one-row matrix and then down the rows reads the vector at the column. -/
theorem bcastRow_apply {α : Type} {a b : Nat} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (i : Fin a) (j : Fin b) :
    broadcastInDim ⟨2, ![a, b]⟩ ![0, 1] h2 (broadcastInDim ⟨2, ![1, b]⟩ ![1] h1 x) (ix2 i j) = x (ix1 j) := by
  refine (broadcastInDim_apply _ h2 _ (ix2 i j) (ix2 (0 : Fin 1) j) (fun c => match c with
    | ⟨0, _⟩ => by
      show 0 = if (1 : Nat) = 1 then 0 else i.val
      rw [if_pos rfl]
    | ⟨1, _⟩ => by
      show j.val = if b = 1 then 0 else j.val
      split
      · have := j.isLt; omega
      · rfl)).trans ?_
  exact broadcastInDim_apply _ h1 x (ix2 (0 : Fin 1) j) (ix1 j) (fun c => match c with
    | ⟨0, _⟩ => by
      show j.val = if b = 1 then 0 else j.val
      split
      · have := j.isLt; omega
      · rfl)

/-! ## One row of a two-row array -/

/-- Row `r` of a `[2, E]` array, sliced out and reshaped to `[E]`, reads the array at `(r, e)`. -/
theorem rowSlice_apply {α : Type} {E : Nat} (r : Fin 2) (x : (⟨2, ![2, E]⟩ : Shape).Idx → α)
    (hs : (⟨2, ![2, E]⟩ : Shape).Slices ![r.val, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![r.val, 0] x hs) hc (ix1 e) = x (ix2 r e) := by
  refine (shapeCast_apply _ hc (ix1 e) (ix2 (0 : Fin 1) e) (by
    rw [Shape.rowMajor_val_two, Shape.rowMajor_val_one]
    show 0 * E + e.val = e.val
    omega)).trans ?_
  exact extractStridedSlice_apply ![r.val, 0] x hs (ix2 (0 : Fin 1) e) (ix2 r e) (fun c => match c with
    | ⟨0, _⟩ => by show r.val = r.val + 0; omega
    | ⟨1, _⟩ => by show e.val = 0 + e.val; omega)

/-! ## A plain matrix product -/

/-- The dimension numbers of the plain product of an `A × K` by a `K × B` matrix: the left operand's columns
    contracted with the right operand's rows, no batch axes. -/
abbrev plainDotDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- They are the library's plain dimension numbers. -/
theorem plainDotDims_eq (A K B : Nat)
    (wf : DotDims.WF ⟨2, ![A, K]⟩ ⟨2, ![K, B]⟩ ⟨2, ![A, B]⟩ [1] [0] [0] [1] [] []) :
    plainDotDims A K B wf = DotDims.plain A K B := rfl

/-- THE HOST'S PLAIN PRODUCT READ AT `(i, j)`, over the extended reals: the sum over the contracted coordinate of
    the products of the entries. -/
theorem plainDot_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    Host.dotGeneral (F := Ideal) (φ₁ := φ₁) (φ₂ := φ₂) (plainDotDims A K B wf) none l r (ix2 i j)
      = ∑ k : Fin K, l (ix2 i k) * r (ix2 k j) :=
  StackMember.dotGeneral_plain_apply (φ₁ := φ₁) (φ₂ := φ₂) none l r i j

/-- THE KERNEL'S PLAIN PRODUCT INTO A ZERO ACCUMULATOR READ AT `(i, j)`, over the extended reals: the same sum. -/
theorem plainMatmul_zero_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    FloatOps.matmul (F := Ideal) (φ₁ := φ₁) (φ₂ := φ₂) (plainDotDims A K B wf) none l r
        (constant (F := Ideal) ⟨2, ![A, B]⟩ .f32 0x00000000#32) (ix2 i j)
      = ∑ k : Fin K, l (ix2 i k) * r (ix2 k j) := by
  rw [Ideal.matmul_constant_zero_apply, ← Ideal.dotGeneral_apply (plainDotDims A K B wf) none .single l r (ix2 i j)]
  exact plainDot_apply (φ₁ := φ₁) (φ₂ := φ₂) A K B wf l r i j

end Cert.LibHR

end
-- ==== Proof.LibLogSoftmax.lean ====
/-
  The logarithm of a soft maximum along the rows of an `a × b` matrix, over the extended reals, generic in the sizes.

  `logSoftmax x (r, j) = s (r, j) − log (∑ₖ exp (s (r, k)))` where `s (r, j) = x (r, j) − max_k x (r, k)` and the row
  maximum is folded from `−∞`. Two programs compute it:
  * a kernel body, by vector operations: a maximum reduction of the last axis from `−∞`, viewed as a column and
    repeated along the rows; a subtraction; an exponential; a sum reduction of the last axis; a logarithm of the
    column; a subtraction (`kernel_eq`);
  * a host program, by StableHLO operations: a reduce with a maximum body from `−∞`, a further maximum with `−∞`
    (which changes nothing: the fold already starts there), broadcasts, subtract, exponential, a reduce with an add
    body from `0`, logarithm, subtract (`host_eq`).
-/
import proofs.«156622_g16509854286320_cont_7to1_1500_4_alg».proof.Proof.LibLayout
import proofs.«156622_g16509854286320_cont_7to1_1500_4_alg».proof.Proof.LibHostRead
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.LibLogSoftmax

open Idealize.ShloMosaic Idealize.ShloMosaic.ValueIdx

variable {a b : Nat}

/-- Row `r`'s maximum, folded from `−∞`. -/
def rowMax (x : (⟨2, ![a, b]⟩ : Shape).Idx → EReal) (r : Fin a) : EReal :=
  (Finset.univ : Finset (Fin b)).fold max (Ideal.ofBits .f32 0xFF800000#32) (fun j => x (ix2 r j))

/-- The entry less its row's maximum. -/
def shifted (x : (⟨2, ![a, b]⟩ : Shape).Idx → EReal) (r : Fin a) (j : Fin b) : EReal := x (ix2 r j) - rowMax x r

/-- The shifted entry less the logarithm of the row's sum of exponentials of shifted entries. -/
def logSoftmax (x : (⟨2, ![a, b]⟩ : Shape).Idx → EReal) : (⟨2, ![a, b]⟩ : Shape).Idx → EReal :=
  fun i => shifted x (i 0) (i 1) - Ideal.log (∑ k : Fin b, Ideal.exp (shifted x (i 0) k))

/-- The reduced index `r` with the last coordinate `k` put back is `(r, k)`. -/
theorem lift_last (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

/-- A column repeated along the rows reads, at `(r, j)`, the column's entry of row `r`. -/
theorem colAcross_apply {α : Type} (v : (⟨2, ![a, 1]⟩ : Shape).Idx → α)
    (h : (⟨2, ![a, 1]⟩ : Shape).BroadcastsInDim ⟨2, ![a, b]⟩ ![0, 1]) (r : Fin a) (j : Fin b) :
    broadcastInDim ⟨2, ![a, b]⟩ ![0, 1] h v (ix2 r j) = v (ix2 r (0 : Fin 1)) :=
  broadcastInDim_apply _ h v (ix2 r j) (ix2 r (0 : Fin 1)) (fun c => match c with
    | ⟨0, _⟩ => by
      show r.val = if a = 1 then 0 else r.val
      split
      · have := r.isLt; omega
      · rfl
    | ⟨1, _⟩ => by
      show 0 = if (1 : Nat) = 1 then 0 else j.val
      rw [if_pos rfl])

/-! ## The kernel's reading -/

/-- The kernel's maximum reduction of the last axis from `−∞`, at row `r`. -/
theorem kernelRowMax_apply (x : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (r : Fin a) :
    multiReduction .maximumf [1] ⟨1, ![a]⟩ x 0xFF800000#32 h hφ hacc (ix1 r) = rowMax x r := by
  rw [Ideal.multiReduction_maximumf_single]
  have e : (x ∘ h.lift (ix1 r)) = fun k : Fin b => x (ix2 r k) := funext fun k => congrArg x (lift_last h r k)
  rw [e]
  rfl

/-- The kernel's sum reduction of the last axis, at row `r`. -/
theorem kernelRowSum_apply (y : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ y 0x00000000#32 h hφ hacc (ix1 r) = ∑ k : Fin b, y (ix2 r k) := by
  rw [Ideal.multiReduction_add_single]
  exact Finset.sum_congr rfl fun k _ => congrArg y (lift_last h r k)

/-- A per-row value viewed as a column and repeated along the rows reads, at `(r, j)`, the value of row `r`. -/
theorem perRow_apply {α : Type} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (r : Fin a) (j : Fin b) :
    broadcastTo ⟨2, ![a, b]⟩ (shapeCast ⟨2, ![a, 1]⟩ v hc) hb (ix2 r j) = v (ix1 r) :=
  (Cert.Attn.Layout.broadcastTo_a1_ab_apply _ hb r j).trans (Cert.Attn.Layout.shapeCast_a_a1_apply v hc r 0)

/-- THE KERNEL'S vector operations compute the logarithm of the soft maximum along the rows. -/
theorem kernel_eq (x : FVec Ideal ⟨2, ![a, b]⟩ .f32) (h : (⟨2, ![a, b]⟩ : Shape).Reduces [1] ⟨1, ![a]⟩)
    (hφ : FKind.Formats .f32) (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩) :
    subf (subf x (broadcastTo ⟨2, ![a, b]⟩ (shapeCast ⟨2, ![a, 1]⟩ (multiReduction .maximumf [1] ⟨1, ![a]⟩ x 0xFF800000#32 h hφ hmax) hc) hb))
      (broadcastTo ⟨2, ![a, b]⟩ (log (shapeCast ⟨2, ![a, 1]⟩
        (multiReduction .add [1] ⟨1, ![a]⟩
          (exp (subf x (broadcastTo ⟨2, ![a, b]⟩ (shapeCast ⟨2, ![a, 1]⟩ (multiReduction .maximumf [1] ⟨1, ![a]⟩ x 0xFF800000#32 h hφ hmax) hc) hb)))
          0x00000000#32 h hφ hadd) hc)) hb)
      = logSoftmax x := by
  have hs : ∀ (r : Fin a) (j : Fin b),
      subf x (broadcastTo ⟨2, ![a, b]⟩ (shapeCast ⟨2, ![a, 1]⟩ (multiReduction .maximumf [1] ⟨1, ![a]⟩ x 0xFF800000#32 h hφ hmax) hc) hb) (ix2 r j)
        = shifted x r j := fun r j => by
    show x (ix2 r j) - _ = x (ix2 r j) - rowMax x r
    rw [perRow_apply, kernelRowMax_apply]
  funext i
  obtain ⟨r, j, rfl⟩ : ∃ (r : Fin a) (j : Fin b), i = ix2 r j := ⟨i 0, i 1, eq_ix2 i⟩
  show _ - _ = shifted x r j - Ideal.log (∑ k : Fin b, Ideal.exp (shifted x r k))
  rw [hs r j, Cert.Attn.Layout.broadcastTo_a1_ab_apply]
  show shifted x r j - Ideal.log (shapeCast ⟨2, ![a, 1]⟩ _ hc (ix2 r (0 : Fin 1))) = _
  rw [Cert.Attn.Layout.shapeCast_a_a1_apply, kernelRowSum_apply]
  refine congrArg (fun s => shifted x r j - Ideal.log s) (Finset.sum_congr rfl fun k _ => ?_)
  show Ideal.exp _ = _
  rw [hs r k]

/-! ## The host's reading -/

/-- The host's reduce with a maximum body over the last axis from `−∞`, at row `r`. -/
theorem hostRowMax_apply (x : FVec Ideal ⟨2, ![a, b]⟩ .f32) (h' : (⟨2, ![a, b]⟩ : Shape).ReducesTo [1] ⟨1, ![a]⟩)
    (h : (⟨2, ![a, b]⟩ : Shape).Reduces [1] ⟨1, ![a]⟩) (hu : 0 < (⟨0, ![]⟩ : Shape).numel) (r : Fin a) :
    Host.reduce FloatOps.maximumf x (constant (F := Ideal) ⟨0, ![]⟩ .f32 0xFF800000#32) h' hu (ix1 r) = rowMax x r := by
  rw [Host.reduce_eq_fold_single FloatOps.maximumf x _ h' h hu]
  have e : (x ∘ h.lift (ix1 r)) = fun k : Fin b => x (ix2 r k) := funext fun k => congrArg x (lift_last h r k)
  rw [e]
  rfl

/-- A further maximum with `−∞` leaves the row maximum as it is: the fold starts at `−∞`. -/
theorem max_negInf_rowMax (x : (⟨2, ![a, b]⟩ : Shape).Idx → EReal) (r : Fin a) :
    max (Ideal.ofBits .f32 0xFF800000#32) (rowMax x r) = rowMax x r :=
  max_eq_right ((Finset.le_fold_max _).mpr (Or.inl le_rfl))

/-- The host's reduce with an add body over the last axis from `0`, at row `r`. -/
theorem hostRowSum_apply (y : FVec Ideal ⟨2, ![a, b]⟩ .f32) (h' : (⟨2, ![a, b]⟩ : Shape).ReducesTo [1] ⟨1, ![a]⟩)
    (h : (⟨2, ![a, b]⟩ : Shape).Reduces [1] ⟨1, ![a]⟩) (hu : 0 < (⟨0, ![]⟩ : Shape).numel) (r : Fin a) :
    Host.reduceAdd y (constant (F := Ideal) ⟨0, ![]⟩ .f32 0x00000000#32) h' hu (ix1 r) = ∑ k : Fin b, y (ix2 r k) := by
  simp only [Host.reduceAdd, Ideal.hostReduceAdd_def]
  rw [Ideal.hostReduceAdd_single h' h]
  show Ideal.ofBits .f32 0x00000000#32 + _ = _
  rw [Ideal.ofBits_zero_f32, zero_add]
  exact Finset.sum_congr rfl fun k _ => congrArg y (lift_last h r k)

/-- THE HOST'S operations compute the logarithm of the soft maximum along the rows. -/
theorem host_eq (x : FVec Ideal ⟨2, ![a, b]⟩ .f32) (h' : (⟨2, ![a, b]⟩ : Shape).ReducesTo [1] ⟨1, ![a]⟩)
    (h : (⟨2, ![a, b]⟩ : Shape).Reduces [1] ⟨1, ![a]⟩) (hu : 0 < (⟨0, ![]⟩ : Shape).numel)
    (h0 : (⟨0, ![]⟩ : Shape).BroadcastsInDim ⟨1, ![a]⟩ ![])
    (h1 : (⟨1, ![a]⟩ : Shape).BroadcastsInDim ⟨2, ![a, 1]⟩ ![0])
    (h2 : (⟨2, ![a, 1]⟩ : Shape).BroadcastsInDim ⟨2, ![a, b]⟩ ![0, 1]) :
    subf (subf x (broadcastInDim ⟨2, ![a, b]⟩ ![0, 1] h2 (broadcastInDim ⟨2, ![a, 1]⟩ ![0] h1
            (maximumf (broadcastInDim ⟨1, ![a]⟩ ![] h0 (constant (F := Ideal) ⟨0, ![]⟩ .f32 0xFF800000#32))
              (Host.reduce FloatOps.maximumf x (constant (F := Ideal) ⟨0, ![]⟩ .f32 0xFF800000#32) h' hu)))))
      (broadcastInDim ⟨2, ![a, b]⟩ ![0, 1] h2 (Host.log (broadcastInDim ⟨2, ![a, 1]⟩ ![0] h1
        (Host.reduceAdd (Host.exp (subf x (broadcastInDim ⟨2, ![a, b]⟩ ![0, 1] h2 (broadcastInDim ⟨2, ![a, 1]⟩ ![0] h1
            (maximumf (broadcastInDim ⟨1, ![a]⟩ ![] h0 (constant (F := Ideal) ⟨0, ![]⟩ .f32 0xFF800000#32))
              (Host.reduce FloatOps.maximumf x (constant (F := Ideal) ⟨0, ![]⟩ .f32 0xFF800000#32) h' hu))))))
          (constant (F := Ideal) ⟨0, ![]⟩ .f32 0x00000000#32) h' hu))))
      = logSoftmax x := by
  have hs : ∀ (r : Fin a) (j : Fin b),
      subf x (broadcastInDim ⟨2, ![a, b]⟩ ![0, 1] h2 (broadcastInDim ⟨2, ![a, 1]⟩ ![0] h1
            (maximumf (broadcastInDim ⟨1, ![a]⟩ ![] h0 (constant (F := Ideal) ⟨0, ![]⟩ .f32 0xFF800000#32))
              (Host.reduce FloatOps.maximumf x (constant (F := Ideal) ⟨0, ![]⟩ .f32 0xFF800000#32) h' hu)))) (ix2 r j)
        = shifted x r j := fun r j => by
    show x (ix2 r j) - _ = x (ix2 r j) - rowMax x r
    rw [colAcross_apply, Cert.LibHR.bcastCol_apply]
    show x (ix2 r j) - max _ _ = _
    rw [Cert.LibHR.bcastScalar_apply, hostRowMax_apply x h' h hu r]
    exact congrArg (x (ix2 r j) - ·) (max_negInf_rowMax x r)
  funext i
  obtain ⟨r, j, rfl⟩ : ∃ (r : Fin a) (j : Fin b), i = ix2 r j := ⟨i 0, i 1, eq_ix2 i⟩
  show _ - _ = shifted x r j - Ideal.log (∑ k : Fin b, Ideal.exp (shifted x r k))
  rw [hs r j, colAcross_apply]
  show shifted x r j - Ideal.log _ = _
  rw [Cert.LibHR.bcastCol_apply, hostRowSum_apply _ h' h hu r]
  refine congrArg (fun s => shifted x r j - Ideal.log s) (Finset.sum_congr rfl fun k _ => ?_)
  show Ideal.exp _ = _
  rw [hs r k]

end Cert.LibLogSoftmax

end
-- ==== Proof.Spec.lean ====
/-
  A two-layer graph convolution over the extended reals, entry by entry.

  With x : 10000 × 128 node features, adj : 10000 × 10000 a dense adjacency matrix, W1 : 128 × 128 and W2 : 128 × 40:
    proj    = x · W1
    hidden  = relu (adj · proj)
    table   = hidden · W2
    logits  = relu (adj · table)
    network = log_softmax of logits along each row.
  Every step after `proj` acts on the rows of `adj` one at a time, so the functions are stated for an `a × 10000`
  matrix `A` of any number of rows; a block of 400 consecutive rows of `adj` then gives the same 400 rows of the
  result (`table_rows`, `classify_rows`): that is all a row-blocked computation needs.
-/
import proofs.«156622_g16509854286320_cont_7to1_1500_4_alg».proof.Proof.LibLogSoftmax
import Idealize.ShloMosaic.Lib.ValueIdx
import Idealize.ShloMosaic.PureOps.Ideal

noncomputable section

open scoped BigOperators

namespace Cert.GCN

open Idealize.ShloMosaic Idealize.ShloMosaic.ValueIdx

/-- The real number zero, as the float word `0x00000000` denotes it. -/
abbrev zero : EReal := Ideal.ofBits .f32 0x00000000#32

/-- `x · W1`. -/
def proj (x : (⟨2, ![10000, 128]⟩ : Shape).Idx → EReal) (W1 : (⟨2, ![128, 128]⟩ : Shape).Idx → EReal) :
    (⟨2, ![10000, 128]⟩ : Shape).Idx → EReal :=
  fun i => ∑ k : Fin 128, x (ix2 (i 0) k) * W1 (ix2 k (i 1))

variable {a : Nat}

/-- `relu (A · S)` at row `r`, column `k`. -/
def hidden (A : (⟨2, ![a, 10000]⟩ : Shape).Idx → EReal) (S : (⟨2, ![10000, 128]⟩ : Shape).Idx → EReal)
    (r : Fin a) (k : Fin 128) : EReal :=
  max (∑ p : Fin 10000, A (ix2 r p) * S (ix2 p k)) zero

/-- `relu (A · S) · W2`. -/
def table (A : (⟨2, ![a, 10000]⟩ : Shape).Idx → EReal) (S : (⟨2, ![10000, 128]⟩ : Shape).Idx → EReal)
    (W2 : (⟨2, ![128, 40]⟩ : Shape).Idx → EReal) : (⟨2, ![a, 40]⟩ : Shape).Idx → EReal :=
  fun i => ∑ k : Fin 128, hidden A S (i 0) k * W2 (ix2 k (i 1))

/-- `relu (A · T)`. -/
def logits (A : (⟨2, ![a, 10000]⟩ : Shape).Idx → EReal) (T : (⟨2, ![10000, 40]⟩ : Shape).Idx → EReal) :
    (⟨2, ![a, 40]⟩ : Shape).Idx → EReal :=
  fun i => max (∑ p : Fin 10000, A (ix2 (i 0) p) * T (ix2 p (i 1))) zero

/-- The logarithm of the soft maximum of `relu (A · T)` along each row. -/
def classify (A : (⟨2, ![a, 10000]⟩ : Shape).Idx → EReal) (T : (⟨2, ![10000, 40]⟩ : Shape).Idx → EReal) :
    (⟨2, ![a, 40]⟩ : Shape).Idx → EReal :=
  Cert.LibLogSoftmax.logSoftmax (logits A T)

/-- The whole network. -/
def network (x : (⟨2, ![10000, 128]⟩ : Shape).Idx → EReal) (adj : (⟨2, ![10000, 10000]⟩ : Shape).Idx → EReal)
    (W1 : (⟨2, ![128, 128]⟩ : Shape).Idx → EReal) (W2 : (⟨2, ![128, 40]⟩ : Shape).Idx → EReal) :
    (⟨2, ![10000, 40]⟩ : Shape).Idx → EReal :=
  classify adj (table adj (proj x W1) W2)

/-! ## Blocks of 400 rows -/

/-- Row `r` of block `q` (of 25) is row `400 q + r` of the whole. -/
def rowOf (q : Nat) (hq : q < 25) (r : Fin 400) : Fin 10000 := ⟨400 * q + r.val, by have := r.isLt; omega⟩

/-- Block `q` of the rows of a 10000-row matrix. -/
def rows (q : Nat) (hq : q < 25) {b : Nat} (M : (⟨2, ![10000, b]⟩ : Shape).Idx → EReal) :
    (⟨2, ![400, b]⟩ : Shape).Idx → EReal :=
  fun y => M (ix2 (rowOf q hq (y 0)) (y 1))

theorem rows_apply (q : Nat) (hq : q < 25) {b : Nat} (M : (⟨2, ![10000, b]⟩ : Shape).Idx → EReal) (r : Fin 400) (j : Fin b) :
    rows q hq M (ix2 r j) = M (ix2 (rowOf q hq r) j) := rfl

/-- The table of a block of rows of `adj` is that block of rows of the table. -/
theorem table_rows (q : Nat) (hq : q < 25) (adj : (⟨2, ![10000, 10000]⟩ : Shape).Idx → EReal)
    (S : (⟨2, ![10000, 128]⟩ : Shape).Idx → EReal) (W2 : (⟨2, ![128, 40]⟩ : Shape).Idx → EReal) :
    table (rows q hq adj) S W2 = rows q hq (table adj S W2) := by
  funext y
  obtain ⟨r, j, rfl⟩ : ∃ (r : Fin 400) (j : Fin 40), y = ix2 r j := ⟨y 0, y 1, eq_ix2 y⟩
  rfl

/-- The classification of a block of rows of `adj` is that block of rows of the classification. -/
theorem classify_rows (q : Nat) (hq : q < 25) (adj : (⟨2, ![10000, 10000]⟩ : Shape).Idx → EReal)
    (T : (⟨2, ![10000, 40]⟩ : Shape).Idx → EReal) :
    classify (rows q hq adj) T = rows q hq (classify adj T) := by
  funext y
  obtain ⟨r, j, rfl⟩ : ∃ (r : Fin 400) (j : Fin 40), y = ix2 r j := ⟨y 0, y 1, eq_ix2 y⟩
  rfl

end Cert.GCN

end
-- ==== Proof.LibContractPlain.lean ====
/-
  A plain matrix product — the columns of an `A × K` left operand contracted with the rows of a `K × B` right
  operand — read at an entry, generic in the sizes and in the precision attribute.

  The product's entry `(i, j)` is the sum over the contracted coordinate `k` of `l (i, k) · r (k, j)`. Over the
  extended reals this holds of the kernel's matrix product accumulated into a zero constant
  (`matmulPlain_zero_apply`) and of the host's `dot_general` with these dimension numbers (`dotPlain_apply`),
  whatever the operands' float formats and the requested precision: at the ideal values no rounding is left in
  either, and the accumulator `0` is the neutral element.
-/
import Idealize.ShloMosaic.Lib.ValueIdx
import Idealize.ShloMosaic.PureOps.Ideal.Laws

noncomputable section

open scoped BigOperators

namespace Cert.LibContractPlain

open Idealize.ShloMosaic Idealize.ShloMosaic.ValueIdx

/-- The dimension numbers of the plain product of an `A × K` by a `K × B` matrix: axis 1 of the left operand
    contracted with axis 0 of the right one, no batch axes. -/
abbrev plainDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- The sum over the contraction index of these dimension numbers, at the entry `(i, j)`, is the sum over the
    shared coordinate `k` of the left operand at `(i, k)` times the right operand at `(k, j)`. -/
theorem contraction_eq {α : Type} [AddCommMonoid α] [Mul α] (A K B : Nat)
    (wf : DotDims.WF ⟨2, ![A, K]⟩ ⟨2, ![K, B]⟩ ⟨2, ![A, B]⟩ [1] [0] [0] [1] [] [])
    (l : (⟨2, ![A, K]⟩ : Shape).Idx → α) (r : (⟨2, ![K, B]⟩ : Shape).Idx → α) (i : Fin A) (j : Fin B) :
    ∑ q : (plainDims A K B wf).contr.Idx,
        l ((plainDims A K B wf).lhsIdx (ix2 i j) q) * r ((plainDims A K B wf).rhsIdx (ix2 i j) q)
      = ∑ k : Fin K, l (ix2 i k) * r (ix2 k j) := by
  rw [← Equiv.sum_comp (contrEquiv1 (plainDims A K B wf) K rfl rfl).symm]
  refine Finset.sum_congr rfl fun c _ => ?_
  have c2 := contrEquiv1_symm_val (plainDims A K B wf) K rfl rfl c
  have l2 : (plainDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (plainDims A K B wf).rhsIdx (ix2 i j) ((contrEquiv1 _ K rfl rfl).symm c) = ix2 c j := by
    funext ax; apply Fin.ext
    match ax with
    | ⟨0, _⟩ => simp [DotDims.rhsIdx]; exact c2
    | ⟨1, _⟩ => simp [DotDims.rhsIdx]; rfl
  rw [l2, r2]

/-- THE HOST'S PLAIN PRODUCT read at `(i, j)`, over the extended reals. -/
theorem dotPlain_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    Host.dotGeneral (plainDims A K B wf) prec l r (ix2 i j) = ∑ k : Fin K, l (ix2 i k) * r (ix2 k j) := by
  show FloatOps.dotGeneral _ prec _ l r (ix2 i j) = _
  rw [Ideal.dotGeneral_apply]
  exact contraction_eq A K B wf l r i j

/-- THE KERNEL'S PLAIN PRODUCT INTO A ZERO ACCUMULATOR read at `(i, j)`, over the extended reals: the same sum. -/
theorem matmulPlain_zero_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    FloatOps.matmul (plainDims A K B wf) prec l r (constant (F := Ideal) ⟨2, ![A, B]⟩ .f32 0x00000000#32) (ix2 i j)
      = ∑ k : Fin K, l (ix2 i k) * r (ix2 k j) := by
  rw [Ideal.matmul_constant_zero_apply]
  exact contraction_eq A K B wf l r i j

end Cert.LibContractPlain

end
-- ==== Proof.Payloads.lean ====
/-
  The kernel bodies' arithmetic, read over the extended reals, is the specification's. A format change is the
  identity there, a matrix product into a zero accumulator is the sum over the contracted coordinate, and the
  maximum with the splat of zero is relu; so the first pass's two payloads are `proj` and `table` (for the 400 rows of
  a block), and the second pass's payload is `classify` (its tail is the row-wise logarithm of the soft maximum,
  spelt with vector reductions).
-/
import proofs.«156622_g16509854286320_cont_7to1_1500_4_alg».proof.Proof.Gen.KernelIdeal.Skeleton
import proofs.«156622_g16509854286320_cont_7to1_1500_4_alg».proof.Proof.Spec
import proofs.«156622_g16509854286320_cont_7to1_1500_4_alg».proof.Proof.LibContractPlain
import proofs.«156622_g16509854286320_cont_7to1_1500_4_alg».proof.Proof.LibLogSoftmax
import Idealize.ShloMosaic.Lib.ValueIdx
import Idealize.ShloMosaic.Lib.Pipeline.Value
import Idealize.ShloMosaic.PureOps.Ideal.Laws

noncomputable section

open scoped BigOperators

namespace Cert.KernelIdeal.Hand

open Cert.KernelIdeal Cert.KernelIdeal.Gen Cert.GCN Cert.LibContractPlain
open Idealize.ShloMosaic Idealize.ShloMosaic.ValueIdx

/-- The projection payload is `x · W1`. -/
theorem pay_proj (x : FVec Ideal S10000x128 .f32) (W1 : FVec Ideal S128x128 .f32) :
    k0_pay1 (F := Ideal) x W1 = proj x W1 := by
  funext i
  obtain ⟨n, k, rfl⟩ : ∃ (n : Fin 10000) (k : Fin 128), i = ix2 n k := ⟨i 0, i 1, eq_ix2 i⟩
  unfold k0_pay1
  simp only [shapeCast_self, truncf_apply]
  refine (matmulPlain_zero_apply 10000 128 128 dot_S10000x128_S128x128_S10000x128_1_0_0_1_n_n.wf none x W1 n k).trans ?_
  rfl

/-- The table payload is `relu (A · S) · W2` on the block's 400 rows. -/
theorem pay_table (A : FVec Ideal S400x10000 .f32) (S : FVec Ideal S10000x128 .bf16) (W2 : FVec Ideal S128x40 .f32) :
    k0_pay2 (F := Ideal) A S W2 = table (a := 400) A S W2 := by
  funext i
  obtain ⟨r, j, rfl⟩ : ∃ (r : Fin 400) (j : Fin 40), i = ix2 r j := ⟨i 0, i 1, eq_ix2 i⟩
  unfold k0_pay2
  refine (matmulPlain_zero_apply 400 128 40 dot_S400x128_S128x40_S400x40_1_0_0_1_n_n.wf none _ W2 r j).trans ?_
  show _ = ∑ k : Fin 128, hidden A S r k * W2 (ix2 k j)
  refine Finset.sum_congr rfl fun k _ => ?_
  refine congrArg (· * W2 (ix2 k j)) ?_
  show max _ zero = max (∑ p : Fin 10000, A (ix2 r p) * S (ix2 p k)) zero
  refine congrArg (max · zero) ?_
  exact matmulPlain_zero_apply 400 10000 128 dot_S400x10000_S10000x128_S400x128_1_0_0_1_n_n.wf none (truncf .bf16 A bitsLt_bf16_f32) S r k

/-- The classification payload is the row-wise logarithm of the soft maximum of `relu (A · T)` on the block's rows. -/
theorem pay_classify (A : FVec Ideal S400x10000 .f32) (T : FVec Ideal S10000x40 .f32) :
    k1_pay1 (F := Ideal) A T = classify (a := 400) A T := by
  unfold k1_pay1
  refine (Cert.LibLogSoftmax.kernel_eq (a := 400) (b := 40) _ reduces_S400x40_S400 (.inl rfl) rfl rfl shapeCasts_S400_S400x1 broadcasts_S400x1_S400x40).trans ?_
  refine congrArg Cert.LibLogSoftmax.logSoftmax ?_
  funext i
  obtain ⟨r, j, rfl⟩ : ∃ (r : Fin 400) (j : Fin 40), i = ix2 r j := ⟨i 0, i 1, eq_ix2 i⟩
  show max _ zero = max (∑ p : Fin 10000, A (ix2 r p) * T (ix2 p j)) zero
  refine congrArg (max · zero) ?_
  simp only [shapeCast_self]
  exact matmulPlain_zero_apply 400 10000 40 dot_S400x10000_S10000x40_S400x40_1_0_0_1_n_n.wf none (truncf .bf16 A bitsLt_bf16_f32) (truncf .bf16 T bitsLt_bf16_f32) r j

end Cert.KernelIdeal.Hand

end
-- ==== Proof.KI.Value.lean ====
/-
  The idealized kernel computes the network of Spec.lean. The windows' index maps put x, W1, W2 (and, in the second
  pass, the first pass's table) whole in front of the body at every point, and rows 400 t … 400 t + 399 of the adjacency
  matrix at point t; both output windows write back rows 400 t … 400 t + 399. So at every point the first pass's output
  block is those rows of `table adj (x · W1) W2` (the scratch carries x · W1 from the first point on) and the second
  pass's output block is those rows of the classification; the 25 blocks cover the 10000 rows, so the arrays end at the
  whole table and the whole network.
-/
import proofs.«156622_g16509854286320_cont_7to1_1500_4_alg».proof.Proof.KI.Run
import proofs.«156622_g16509854286320_cont_7to1_1500_4_alg».proof.Proof.KI.Pieces
import proofs.«156622_g16509854286320_cont_7to1_1500_4_alg».proof.Proof.Payloads
import proofs.«156622_g16509854286320_cont_7to1_1500_4_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.GCN Idealize.ShloMosaic.ValueIdx

/-! ## The index maps, decided over the grids -/

theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem idx1 : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

theorem lt25 (t : Fin cfg0.N) : t.val < 25 := lt_of_lt_of_eq t.isLt N_0
theorem lt25' (t : Fin cfg1.N) : t.val < 25 := lt_of_lt_of_eq t.isLt N_1

/-! ## The input blocks, as the arrays' rows -/

section Blocks
variable (V : (c : Dev nD) → (b : Ref sig .tc) → Buf (Elt Ideal) ((c : Thread nD τ).loc b))

theorem iblk0_x (c : Dev nD) (t : Fin cfg0.N) : (iblk0 V c 0 t : S10000x128.Idx → EReal) = (V c main_arg0 : S10000x128.Idx → EReal) := by
  obtain ⟨e00, e01, e10, e11, e20, e21, e30, e31, e40, e41⟩ := idx0 t
  funext y
  unfold iblk0
  rw [View.read_apply]
  show V c main_arg0 (((cfg0.win 0).blk t).view.emb y) = V c main_arg0 y
  refine congrArg (V c main_arg0) ?_
  funext a; apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega

theorem iblk0_W1 (c : Dev nD) (t : Fin cfg0.N) : (iblk0 V c 1 t : S128x128.Idx → EReal) = (V c main_arg2 : S128x128.Idx → EReal) := by
  obtain ⟨e00, e01, e10, e11, e20, e21, e30, e31, e40, e41⟩ := idx0 t
  funext y
  unfold iblk0
  rw [View.read_apply]
  show V c main_arg2 (((cfg0.win 1).blk t).view.emb y) = V c main_arg2 y
  refine congrArg (V c main_arg2) ?_
  funext a; apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem iblk0_W2 (c : Dev nD) (t : Fin cfg0.N) : (iblk0 V c 2 t : S128x40.Idx → EReal) = (V c main_arg3 : S128x40.Idx → EReal) := by
  obtain ⟨e00, e01, e10, e11, e20, e21, e30, e31, e40, e41⟩ := idx0 t
  funext y
  unfold iblk0
  rw [View.read_apply]
  show V c main_arg3 (((cfg0.win 2).blk t).view.emb y) = V c main_arg3 y
  refine congrArg (V c main_arg3) ?_
  funext a; apply Fin.ext
  match a with
  | ⟨0, _⟩ => show win0_2.index t (0 : Fin 2) * 128 + 1 * (y 0).val = (y 0).val; omega
  | ⟨1, _⟩ => show win0_2.index t (1 : Fin 2) * 40 + 1 * (y 1).val = (y 1).val; omega

theorem iblk0_adj (c : Dev nD) (t : Fin cfg0.N) :
    (iblk0 V c 3 t : S400x10000.Idx → EReal) = rows t.val (lt25 t) (b := 10000) (V c main_arg1 : S10000x10000.Idx → EReal) := by
  obtain ⟨e00, e01, e10, e11, e20, e21, e30, e31, e40, e41⟩ := idx0 t
  funext y
  unfold iblk0
  rw [View.read_apply]
  show V c main_arg1 (((cfg0.win 3).blk t).view.emb y) = V c main_arg1 (ix2 (rowOf t.val (lt25 t) (y 0)) (y 1))
  refine congrArg (V c main_arg1) ?_
  funext a; apply Fin.ext
  match a with
  | ⟨0, _⟩ => show win0_3.index t (0 : Fin 2) * 400 + 1 * (y 0).val = 400 * t.val + (y 0).val; omega
  | ⟨1, _⟩ => show win0_3.index t (1 : Fin 2) * 10000 + 1 * (y 1).val = (y 1).val; omega

theorem iblk1_tab (c : Dev nD) (t : Fin cfg1.N) : (iblk1 V c 0 t : S10000x40.Idx → EReal) = (V c main_call0_v0 : S10000x40.Idx → EReal) := by
  obtain ⟨e00, e01, e10, e11, e20, e21⟩ := idx1 t
  funext y
  unfold iblk1
  rw [View.read_apply]
  show V c main_call0_v0 (((cfg1.win 0).blk t).view.emb y) = V c main_call0_v0 y
  refine congrArg (V c main_call0_v0) ?_
  funext a; apply Fin.ext
  match a with
  | ⟨0, _⟩ => show win1_0.index t (0 : Fin 2) * 10000 + 1 * (y 0).val = (y 0).val; omega
  | ⟨1, _⟩ => show win1_0.index t (1 : Fin 2) * 40 + 1 * (y 1).val = (y 1).val; omega

theorem iblk1_adj (c : Dev nD) (t : Fin cfg1.N) :
    (iblk1 V c 1 t : S400x10000.Idx → EReal) = rows t.val (lt25' t) (b := 10000) (V c main_arg1 : S10000x10000.Idx → EReal) := by
  obtain ⟨e00, e01, e10, e11, e20, e21⟩ := idx1 t
  funext y
  unfold iblk1
  rw [View.read_apply]
  show V c main_arg1 (((cfg1.win 1).blk t).view.emb y) = V c main_arg1 (ix2 (rowOf t.val (lt25' t) (y 0)) (y 1))
  refine congrArg (V c main_arg1) ?_
  funext a; apply Fin.ext
  match a with
  | ⟨0, _⟩ => show win1_1.index t (0 : Fin 2) * 400 + 1 * (y 0).val = 400 * t.val + (y 0).val; omega
  | ⟨1, _⟩ => show win1_1.index t (1 : Fin 2) * 10000 + 1 * (y 1).val = (y 1).val; omega

end Blocks

variable (m : (ℓ : Loc nD τ sig) → Buf (Elt Ideal) ℓ) (ρ : Dev nD → PrngReg)

/-! ## The arguments, as matrices of extended reals -/

abbrev aX (c : Dev nD) : (⟨2, ![10000, 128]⟩ : Shape).Idx → EReal := m ((c.tc : Thread nD τ).loc main_arg0)
abbrev aAdj (c : Dev nD) : (⟨2, ![10000, 10000]⟩ : Shape).Idx → EReal := m ((c.tc : Thread nD τ).loc main_arg1)
abbrev aW1 (c : Dev nD) : (⟨2, ![128, 128]⟩ : Shape).Idx → EReal := m ((c.tc : Thread nD τ).loc main_arg2)
abbrev aW2 (c : Dev nD) : (⟨2, ![128, 40]⟩ : Shape).Idx → EReal := m ((c.tc : Thread nD τ).loc main_arg3)

/-- The first pass's whole table. -/
def tab (c : Dev nD) : (⟨2, ![10000, 40]⟩ : Shape).Idx → EReal :=
  table (a := 10000) (aAdj m c) (proj (aX m c) (aW1 m c)) (aW2 m c)

/-! ## The first pass -/

/-- From the first block on the scratch holds `x · W1`. -/
theorem S0_eq (c : Dev nD) : (S0 (V0 m ρ) c : S10000x128.Idx → EReal) = proj (aX m c) (aW1 m c) := by
  unfold S0
  refine (sout0_A_eq c (grid0.coords t₀) (ms0_0 t₀) (hs0_0 t₀) (ms0_1 t₀) (hs0_1 t₀) (ms0_2 t₀) (hs0_2 t₀) (ms0_3 t₀) (hs0_3 t₀) (ms0_4 t₀) (hs0_4 t₀) scM0 (Memref.isWhole_whole _) ((hcond0_0 t₀).mpr rfl) (iblk0 (V0 m ρ) c 0 t₀) (iblk0 (V0 m ρ) c 1 t₀) (iblk0 (V0 m ρ) c 2 t₀) (iblk0 (V0 m ρ) c 3 t₀)).trans ?_
  rw [iblk0_x, iblk0_W1]
  exact pay_proj _ _

/-- The output block at point `t` is rows `400 t …` of the table. -/
theorem outAt0_eq (c : Dev nD) (t : Fin cfg0.N) :
    (outAt0 (V0 m ρ) c t : S400x40.Idx → EReal) = rows t.val (lt25 t) (tab m c) := by
  by_cases h : t.val = 0
  · rw [outAt0_first (V0 m ρ) c t h]
    refine (out0_A_4_eq c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h) (iblk0 (V0 m ρ) c 0 t) (iblk0 (V0 m ρ) c 1 t) (iblk0 (V0 m ρ) c 2 t) (iblk0 (V0 m ρ) c 3 t)).trans ?_
    rw [iblk0_x, iblk0_W1, iblk0_W2, iblk0_adj, pay_proj, pay_table]
    exact table_rows t.val (lt25 t) _ _ _
  · rw [outAt0_later (V0 m ρ) c t h]
    refine (out0_B_4_eq c (grid0.coords t) (ms0_0 t) (hs0_0 t) (ms0_1 t) (hs0_1 t) (ms0_2 t) (hs0_2 t) (ms0_3 t) (hs0_3 t) (ms0_4 t) (hs0_4 t) scM0 (Memref.isWhole_whole _) (fun hc => h ((hcond0_0 t).mp hc)) (iblk0 (V0 m ρ) c 0 t) (iblk0 (V0 m ρ) c 1 t) (iblk0 (V0 m ρ) c 2 t) (iblk0 (V0 m ρ) c 3 t) (S0 (V0 m ρ) c)).trans ?_
    rw [S0_eq, iblk0_W2, iblk0_adj, pay_table]
    exact table_rows t.val (lt25 t) _ _ _

/-- What point `t` writes back is block `t` of the table. -/
theorem flushed0_eq (c : Dev nD) (t : Fin cfg0.N) :
    (dat0 (V0 m ρ) c).flushed 4 t = ((cfg0.win 4).blk t).view.read (Elt Ideal) (tab m c) := by
  obtain ⟨e00, e01, e10, e11, e20, e21, e30, e31, e40, e41⟩ := idx0 t
  show (cfg0.win 4).cut (grid0.coords t) ((dat0 (V0 m ρ) c).after 4 t) = _
  rw [after0_4, outAt0_eq]
  funext j
  show tab m c (ix2 (rowOf t.val (lt25 t) (j 0)) (j 1)) = tab m c (((cfg0.win 4).blk t).view.emb j)
  refine congrArg (tab m c) ?_
  funext a; apply Fin.ext
  match a with
  | ⟨0, _⟩ => show 400 * t.val + (j 0).val = win0_4.index t (0 : Fin 2) * 400 + 1 * (j 0).val; omega
  | ⟨1, _⟩ => show (j 1).val = win0_4.index t (1 : Fin 2) * 40 + 1 * (j 1).val; omega

theorem mem_blk0 (t : Fin cfg0.N) (i : S10000x40.Idx) :
    i ∈ ((cfg0.win 4).blk t).view.set ↔ ∀ a : Fin 2, win0_4.index t a * S400x40.size a ≤ (i a).val ∧ (i a).val < win0_4.index t a * S400x40.size a + S400x40.size a := by
  show i ∈ ((View.whole main_call0_v0).slice (win0_4.rect t)).set ↔ _
  rw [View.set_slice_whole, Rect.mem_set_unit]
  exact Iff.rfl

/-- The 25 blocks cover the 10000 rows, so the first pass's array ends at the whole table. -/
theorem final0 (c : Dev nD) : (dat0 (V0 m ρ) c).arrAt 4 cfg0.N = tab m c :=
  (dat0 (V0 m ρ) c).arrAt_eq_of_cover 4 (tab m c) (fun t _ => flushed0_eq m ρ c t) fun i => by
    have h0 : (i 0).val < 10000 := (i 0).isLt
    have h1 : (i 1).val < 40 := (i 1).isLt
    have hN : cfg0.N = 25 := N_0
    refine ⟨⟨(i 0).val / 400, by rw [hN]; omega⟩, flush0_4 _, ?_⟩
    rw [mem_blk0]
    obtain ⟨e00, e01, e10, e11, e20, e21, e30, e31, e40, e41⟩ := idx0 ⟨(i 0).val / 400, by rw [hN]; omega⟩
    intro a
    match a with
    | ⟨0, _⟩ =>
      show win0_4.index ⟨(i 0).val / 400, _⟩ (0 : Fin 2) * 400 ≤ (i 0).val ∧ (i 0).val < win0_4.index ⟨(i 0).val / 400, _⟩ (0 : Fin 2) * 400 + 400
      rw [e40]; show (i 0).val / 400 * 400 ≤ (i 0).val ∧ (i 0).val < (i 0).val / 400 * 400 + 400; omega
    | ⟨1, _⟩ =>
      show win0_4.index ⟨(i 0).val / 400, _⟩ (1 : Fin 2) * 40 ≤ (i 1).val ∧ (i 1).val < win0_4.index ⟨(i 0).val / 400, _⟩ (1 : Fin 2) * 40 + 40
      rw [e41]; omega

/-! ## The second pass -/

theorem V1_tab (c : Dev nD) : (V1 m ρ c main_call0_v0 : S10000x40.Idx → EReal) = tab m c :=
  (W1_main_call0_v0 m ρ c).trans (final0 m ρ c)
theorem V1_adj (c : Dev nD) : (V1 m ρ c main_arg1 : S10000x10000.Idx → EReal) = aAdj m c :=
  W1_main_arg1 m ρ c

/-- The whole network of the launch contents. -/
def net (c : Dev nD) : (⟨2, ![10000, 40]⟩ : Shape).Idx → EReal :=
  network (aX m c) (aAdj m c) (aW1 m c) (aW2 m c)

/-- The output block at point `t` is rows `400 t …` of the network. -/
theorem outAt1_eq (c : Dev nD) (t : Fin cfg1.N) :
    (outAt1 (V1 m ρ) c t : S400x40.Idx → EReal) = rows t.val (lt25' t) (net m c) := by
  unfold outAt1
  refine (out1_2_eq c (grid1.coords t) (ms1_0 t) (hs1_0 t) (ms1_1 t) (hs1_1 t) (ms1_2 t) (hs1_2 t) (iblk1 (V1 m ρ) c 0 t) (iblk1 (V1 m ρ) c 1 t)).trans ?_
  rw [iblk1_tab, iblk1_adj, V1_tab, V1_adj, pay_classify]
  exact classify_rows t.val (lt25' t) _ _

theorem flushed1_eq (c : Dev nD) (t : Fin cfg1.N) :
    (dat1 (V1 m ρ) c).flushed 2 t = ((cfg1.win 2).blk t).view.read (Elt Ideal) (net m c) := by
  obtain ⟨e00, e01, e10, e11, e20, e21⟩ := idx1 t
  show (cfg1.win 2).cut (grid1.coords t) ((dat1 (V1 m ρ) c).after 2 t) = _
  rw [after1_2, outAt1_eq]
  funext j
  show net m c (ix2 (rowOf t.val (lt25' t) (j 0)) (j 1)) = net m c (((cfg1.win 2).blk t).view.emb j)
  refine congrArg (net m c) ?_
  funext a; apply Fin.ext
  match a with
  | ⟨0, _⟩ => show 400 * t.val + (j 0).val = win1_2.index t (0 : Fin 2) * 400 + 1 * (j 0).val; omega
  | ⟨1, _⟩ => show (j 1).val = win1_2.index t (1 : Fin 2) * 40 + 1 * (j 1).val; omega

theorem mem_blk1 (t : Fin cfg1.N) (i : S10000x40.Idx) :
    i ∈ ((cfg1.win 2).blk t).view.set ↔ ∀ a : Fin 2, win1_2.index t a * S400x40.size a ≤ (i a).val ∧ (i a).val < win1_2.index t a * S400x40.size a + S400x40.size a := by
  show i ∈ ((View.whole main_v0).slice (win1_2.rect t)).set ↔ _
  rw [View.set_slice_whole, Rect.mem_set_unit]
  exact Iff.rfl

/-- The 25 blocks cover the 10000 rows, so the result array ends at the whole network. -/
theorem final1 (c : Dev nD) : (dat1 (V1 m ρ) c).arrAt 2 cfg1.N = net m c :=
  (dat1 (V1 m ρ) c).arrAt_eq_of_cover 2 (net m c) (fun t _ => flushed1_eq m ρ c t) fun i => by
    have h0 : (i 0).val < 10000 := (i 0).isLt
    have h1 : (i 1).val < 40 := (i 1).isLt
    have hN : cfg1.N = 25 := N_1
    refine ⟨⟨(i 0).val / 400, by rw [hN]; omega⟩, flush1_2 _, ?_⟩
    rw [mem_blk1]
    obtain ⟨e00, e01, e10, e11, e20, e21⟩ := idx1 ⟨(i 0).val / 400, by rw [hN]; omega⟩
    intro a
    match a with
    | ⟨0, _⟩ =>
      show win1_2.index ⟨(i 0).val / 400, _⟩ (0 : Fin 2) * 400 ≤ (i 0).val ∧ (i 0).val < win1_2.index ⟨(i 0).val / 400, _⟩ (0 : Fin 2) * 400 + 400
      rw [e20]; show (i 0).val / 400 * 400 ≤ (i 0).val ∧ (i 0).val < (i 0).val / 400 * 400 + 400; omega
    | ⟨1, _⟩ =>
      show win1_2.index ⟨(i 0).val / 400, _⟩ (1 : Fin 2) * 40 ≤ (i 1).val ∧ (i 1).val < win1_2.index ⟨(i 0).val / 400, _⟩ (1 : Fin 2) * 40 + 40
      rw [e21]; omega

/-! ## The run, read -/

/-- Every weakly fair execution ends with the result array at the network of the launch contents, the arguments as
    launched. -/
theorem run_value : θ_run defs (onTc (τ := τ) (main (F := Ideal))) ⟨m, fun _ => 0, ρ⟩ (fun r => ∀ c : Dev nD,
      r.2.mem ((c.tc : Thread nD τ).loc main_v0) = net m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (final1 m ρ c), (h c).2⟩) (run_named m ρ)

end Cert.KernelIdeal.Hand

end
-- ==== Proof.RefValue.lean ====
/-
  The reference program computes the network of Spec.lean. Its run ends with the result at one composed term of host
  operations of the four arguments: two plain matrix products, a maximum with the splat of zero, two more products, a
  maximum with zero, and the row-wise logarithm of the soft maximum spelt with reduces and broadcasts. Read over the
  extended reals each product is the sum over the contracted coordinate and each maximum with zero is relu, so the
  term is `network x adj W1 W2`.
-/
import proofs.«156622_g16509854286320_cont_7to1_1500_4_alg».proof.Proof.Gen.ReferenceIdeal
import proofs.«156622_g16509854286320_cont_7to1_1500_4_alg».proof.Proof.Spec
import proofs.«156622_g16509854286320_cont_7to1_1500_4_alg».proof.Proof.LibContractPlain
import proofs.«156622_g16509854286320_cont_7to1_1500_4_alg».proof.Proof.LibHostRead
import proofs.«156622_g16509854286320_cont_7to1_1500_4_alg».proof.Proof.LibLogSoftmax
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.GCN Cert.LibContractPlain
open Idealize.ShloMosaic Idealize.ShloMosaic.ValueIdx

/-- The last axis of a 10000 × 40 matrix reduces to a 10000-vector. -/
theorem reduces_rows : S10000x40.Reduces [1] S10000 := by decide

/-- The host's `x · W1`. -/
theorem host_proj (x : FVec Ideal S10000x128 .f32) (W1 : FVec Ideal S128x128 .f32) :
    Host.dotGeneral dot_S10000x128_S128x128_S10000x128_1_0_0_1_n_n none x W1 = proj x W1 := by
  funext i
  obtain ⟨n, k, rfl⟩ : ∃ (n : Fin 10000) (k : Fin 128), i = ix2 n k := ⟨i 0, i 1, eq_ix2 i⟩
  exact dotPlain_apply 10000 128 128 dot_S10000x128_S128x128_S10000x128_1_0_0_1_n_n.wf none x W1 n k

/-- The host's `relu (adj · S) · W2`. -/
theorem host_table (adj : FVec Ideal S10000x10000 .f32) (S : FVec Ideal S10000x128 .f32) (W2 : FVec Ideal S128x40 .f32) :
    Host.dotGeneral dot_S10000x128_S128x40_S10000x40_1_0_0_1_n_n none
        (maximumf (Host.dotGeneral dot_S10000x10000_S10000x128_S10000x128_1_0_0_1_n_n none adj S)
          (broadcastInDim S10000x128 ![] bcast_S_S10000x128 (constant (F := Ideal) S_ .f32 0x00000000#32))) W2
      = table (a := 10000) adj S W2 := by
  funext i
  obtain ⟨r, j, rfl⟩ : ∃ (r : Fin 10000) (j : Fin 40), i = ix2 r j := ⟨i 0, i 1, eq_ix2 i⟩
  refine (dotPlain_apply 10000 128 40 dot_S10000x128_S128x40_S10000x40_1_0_0_1_n_n.wf none _ W2 r j).trans ?_
  show _ = ∑ k : Fin 128, hidden adj S r k * W2 (ix2 k j)
  refine Finset.sum_congr rfl fun k _ => ?_
  refine congrArg (· * W2 (ix2 k j)) ?_
  show max _ _ = max (∑ p : Fin 10000, adj (ix2 r p) * S (ix2 p k)) zero
  exact congrArg₂ max (dotPlain_apply 10000 10000 128 dot_S10000x10000_S10000x128_S10000x128_1_0_0_1_n_n.wf none adj S r k)
    (Cert.LibHR.bcastScalar_apply bcast_S_S10000x128 _ (ix2 r k))

/-- The host's `relu (adj · T)`. -/
theorem host_logits (adj : FVec Ideal S10000x10000 .f32) (T : FVec Ideal S10000x40 .f32) :
    maximumf (Host.dotGeneral dot_S10000x10000_S10000x40_S10000x40_1_0_0_1_n_n none adj T)
        (broadcastInDim S10000x40 ![] bcast_S_S10000x40 (constant (F := Ideal) S_ .f32 0x00000000#32))
      = logits (a := 10000) adj T := by
  funext i
  obtain ⟨r, j, rfl⟩ : ∃ (r : Fin 10000) (j : Fin 40), i = ix2 r j := ⟨i 0, i 1, eq_ix2 i⟩
  show max _ _ = max (∑ p : Fin 10000, adj (ix2 r p) * T (ix2 p j)) zero
  exact congrArg₂ max (dotPlain_apply 10000 10000 40 dot_S10000x10000_S10000x40_S10000x40_1_0_0_1_n_n.wf none adj T r j)
    (Cert.LibHR.bcastScalar_apply bcast_S_S10000x40 _ (ix2 r j))

/-- THE REFERENCE'S RESULT TERM is the network. -/
theorem ref_eq (x : FVec Ideal S10000x128 .f32) (adj : FVec Ideal S10000x10000 .f32) (W1 : FVec Ideal S128x128 .f32)
    (W2 : FVec Ideal S128x40 .f32) :
    subf (subf (maximumf (Host.dotGeneral dot_S10000x10000_S10000x40_S10000x40_1_0_0_1_n_n none adj (Host.dotGeneral dot_S10000x128_S128x40_S10000x40_1_0_0_1_n_n none (maximumf (Host.dotGeneral dot_S10000x10000_S10000x128_S10000x128_1_0_0_1_n_n none adj (Host.dotGeneral dot_S10000x128_S128x128_S10000x128_1_0_0_1_n_n none x W1)) (broadcastInDim S10000x128 ![] bcast_S_S10000x128 (constant (F := Ideal) S_ .f32 0x00000000#32))) W2)) (broadcastInDim S10000x40 ![] bcast_S_S10000x40 (constant (F := Ideal) S_ .f32 0x00000000#32))) (broadcastInDim S10000x40 ![0, 1] bcast_S10000x1_S10000x40_0_1 (broadcastInDim S10000x1 ![0] bcast_S10000_S10000x1_0 (maximumf (broadcastInDim S10000 ![] bcast_S_S10000 (constant (F := Ideal) S_ .f32 0xFF800000#32)) (Host.reduce FloatOps.maximumf (maximumf (Host.dotGeneral dot_S10000x10000_S10000x40_S10000x40_1_0_0_1_n_n none adj (Host.dotGeneral dot_S10000x128_S128x40_S10000x40_1_0_0_1_n_n none (maximumf (Host.dotGeneral dot_S10000x10000_S10000x128_S10000x128_1_0_0_1_n_n none adj (Host.dotGeneral dot_S10000x128_S128x128_S10000x128_1_0_0_1_n_n none x W1)) (broadcastInDim S10000x128 ![] bcast_S_S10000x128 (constant (F := Ideal) S_ .f32 0x00000000#32))) W2)) (broadcastInDim S10000x40 ![] bcast_S_S10000x40 (constant (F := Ideal) S_ .f32 0x00000000#32))) (constant (F := Ideal) S_ .f32 0xFF800000#32) reducesTo_S10000x40_S10000_d1 h_S_))))) (broadcastInDim S10000x40 ![0, 1] bcast_S10000x1_S10000x40_0_1 (Host.log (broadcastInDim S10000x1 ![0] bcast_S10000_S10000x1_0 (Host.reduceAdd (Host.exp (subf (maximumf (Host.dotGeneral dot_S10000x10000_S10000x40_S10000x40_1_0_0_1_n_n none adj (Host.dotGeneral dot_S10000x128_S128x40_S10000x40_1_0_0_1_n_n none (maximumf (Host.dotGeneral dot_S10000x10000_S10000x128_S10000x128_1_0_0_1_n_n none adj (Host.dotGeneral dot_S10000x128_S128x128_S10000x128_1_0_0_1_n_n none x W1)) (broadcastInDim S10000x128 ![] bcast_S_S10000x128 (constant (F := Ideal) S_ .f32 0x00000000#32))) W2)) (broadcastInDim S10000x40 ![] bcast_S_S10000x40 (constant (F := Ideal) S_ .f32 0x00000000#32))) (broadcastInDim S10000x40 ![0, 1] bcast_S10000x1_S10000x40_0_1 (broadcastInDim S10000x1 ![0] bcast_S10000_S10000x1_0 (maximumf (broadcastInDim S10000 ![] bcast_S_S10000 (constant (F := Ideal) S_ .f32 0xFF800000#32)) (Host.reduce FloatOps.maximumf (maximumf (Host.dotGeneral dot_S10000x10000_S10000x40_S10000x40_1_0_0_1_n_n none adj (Host.dotGeneral dot_S10000x128_S128x40_S10000x40_1_0_0_1_n_n none (maximumf (Host.dotGeneral dot_S10000x10000_S10000x128_S10000x128_1_0_0_1_n_n none adj (Host.dotGeneral dot_S10000x128_S128x128_S10000x128_1_0_0_1_n_n none x W1)) (broadcastInDim S10000x128 ![] bcast_S_S10000x128 (constant (F := Ideal) S_ .f32 0x00000000#32))) W2)) (broadcastInDim S10000x40 ![] bcast_S_S10000x40 (constant (F := Ideal) S_ .f32 0x00000000#32))) (constant (F := Ideal) S_ .f32 0xFF800000#32) reducesTo_S10000x40_S10000_d1 h_S_)))))) (constant (F := Ideal) S_ .f32 0x00000000#32) reducesTo_S10000x40_S10000_d1 h_S_))))
      = network x adj W1 W2 := by
  refine (Cert.LibLogSoftmax.host_eq (a := 10000) (b := 40) _ reducesTo_S10000x40_S10000_d1 reduces_rows h_S_
    bcast_S_S10000 bcast_S10000_S10000x1_0 bcast_S10000x1_S10000x40_0_1).trans ?_
  refine congrArg Cert.LibLogSoftmax.logSoftmax ?_
  rw [host_proj, host_table, host_logits]

end Cert.ReferenceIdeal.RefValue

end
-- ==== Proof.lean ====
/-
  A two-layer graph convolution, row-blocked on the TensorCore, against its plain array program.

  The kernel runs two passes over 25 blocks of 400 rows of a dense 10000 × 10000 adjacency matrix. The first pass
  computes x · W1 once, at its first block, keeps it in a scratch buffer, and writes relu (adj_block · (x · W1)) · W2
  block by block; the second pass writes the row-wise logarithm of the soft maximum of relu (adj_block · table) block by
  block. The reference computes the same five steps on whole arrays. Over the extended reals a change of float format
  is the identity and every matrix product is the sum over the contracted coordinate, and blocking the rows changes no
  sum (each block contracts over all 10000 columns), so both programs compute `network x adj W1 W2` of Proof/Spec.lean:
  no algebraic law and no use of the finiteness of the inputs is needed.

  * Frames: each pass is run as a pipeline segment (Proof/K/… at the word level, Proof/KI/… at the exact instance; the
    first pass's invariant says the scratch holds x · W1 from the first block on); the reference's frame is its run with
    the result dropped.
  * `preserves`: the idealization rewrote nothing.
  * `algebraic`: the kernel's result array ends at the network (Proof/KI/Value.lean); the reference's result term is the
    network (Proof/RefValue.lean).
-/
import proofs.«156622_g16509854286320_cont_7to1_1500_4_alg».proof.Defs
import proofs.«156622_g16509854286320_cont_7to1_1500_4_alg».proof.Proof.Gen.Kernel
import proofs.«156622_g16509854286320_cont_7to1_1500_4_alg».proof.Proof.Gen.KernelIdeal
import proofs.«156622_g16509854286320_cont_7to1_1500_4_alg».proof.Proof.Gen.ReferenceIdeal
import proofs.«156622_g16509854286320_cont_7to1_1500_4_alg».proof.Proof.Gen.Pre_finite_inputs
import proofs.«156622_g16509854286320_cont_7to1_1500_4_alg».proof.Proof.K.Run
import proofs.«156622_g16509854286320_cont_7to1_1500_4_alg».proof.Proof.KI.Value
import proofs.«156622_g16509854286320_cont_7to1_1500_4_alg».proof.Proof.RefRun
import proofs.«156622_g16509854286320_cont_7to1_1500_4_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end at the network of the (agreeing) arguments. -/
theorem algebraic : Cert.algebraic_KernelIdeal_ReferenceIdeal := by
  intro m ρ m' ρ' _ hagree
  refine ⟨fun c => Cert.KernelIdeal.Hand.net m c, Cert.KernelIdeal.Hand.run_value m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2.1, (hagree c).2.2.2]
  exact Cert.ReferenceIdeal.RefValue.ref_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
